-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16384 : Shape := ⟨2, ![2048, 16384]⟩
abbrev S_ : Shape := ⟨0, ![]⟩

class Facts : Prop where
  bcast_S_S2048x16384 : S_.BroadcastsInDim S2048x16384 (![] : Fin 0 → Fin S2048x16384.rank)
  reducesTo_S2048x16384_S_d0_1 : S2048x16384.ReducesTo [0, 1] S_
  h_S_ : 0 < S_.numel

variable [Facts]

def fn_part1 {F : FTy → Type} [FloatOps F] (main_v13 : IVec S_ 1) (main_v16 : IVec S2048x16384 1) : IVec S_ 1 :=
  let main_c_5 : IVec S_ 1 := constantI S_ 1 1#1
  let main_v17 : IVec S_ 1 := (fun x v => Host.reduce IntOp.andi x v reducesTo_S2048x16384_S_d0_1 h_S_) main_v16 main_c_5
  let main_v18 : IVec S_ 1 := andi main_v13 main_v17
  main_v18

def fn {F : FTy → Type} [FloatOps F] (main_arg0 : FVec F S2048x16384 .f32) (main_arg1 : FVec F S2048x16384 .f32) (main_arg2 : FVec F S2048x16384 .f32) (main_arg3 : FVec F S2048x16384 .f32) : IVec S_ 1 :=
  let main_v0 : FVec F S2048x16384 .f32 := Host.absf main_arg0
  let main_cst : FVec F S_ .f32 := constant S_ .f32 0x7F800000#32
  let main_v1 : FVec F S2048x16384 .f32 := broadcastInDim S2048x16384 ![] bcast_S_S2048x16384 main_cst
  let main_v2 : IVec S2048x16384 1 := cmpf .olt main_v0 main_v1
  let main_c : IVec S_ 1 := constantI S_ 1 1#1
  let main_v3 : IVec S_ 1 := (fun x v => Host.reduce IntOp.andi x v reducesTo_S2048x16384_S_d0_1 h_S_) main_v2 main_c
  let main_v4 : FVec F S2048x16384 .f32 := Host.absf main_arg1
  let main_cst_0 : FVec F S_ .f32 := constant S_ .f32 0x7F800000#32
  let main_v5 : FVec F S2048x16384 .f32 := broadcastInDim S2048x16384 ![] bcast_S_S2048x16384 main_cst_0
  let main_v6 : IVec S2048x16384 1 := cmpf .olt main_v4 main_v5
  let main_c_1 : IVec S_ 1 := constantI S_ 1 1#1
  let main_v7 : IVec S_ 1 := (fun x v => Host.reduce IntOp.andi x v reducesTo_S2048x16384_S_d0_1 h_S_) main_v6 main_c_1
  let main_v8 : IVec S_ 1 := andi main_v3 main_v7
  let main_v9 : FVec F S2048x16384 .f32 := Host.absf main_arg2
  let main_cst_2 : FVec F S_ .f32 := constant S_ .f32 0x7F800000#32
  let main_v10 : FVec F S2048x16384 .f32 := broadcastInDim S2048x16384 ![] bcast_S_S2048x16384 main_cst_2
  let main_v11 : IVec S2048x16384 1 := cmpf .olt main_v9 main_v10
  let main_c_3 : IVec S_ 1 := constantI S_ 1 1#1
  let main_v12 : IVec S_ 1 := (fun x v => Host.reduce IntOp.andi x v reducesTo_S2048x16384_S_d0_1 h_S_) main_v11 main_c_3
  let main_v13 : IVec S_ 1 := andi main_v8 main_v12
  let main_v14 : FVec F S2048x16384 .f32 := Host.absf main_arg3
  let main_cst_4 : FVec F S_ .f32 := constant S_ .f32 0x7F800000#32
  let main_v15 : FVec F S2048x16384 .f32 := broadcastInDim S2048x16384 ![] bcast_S_S2048x16384 main_cst_4
  let main_v16 : IVec S2048x16384 1 := cmpf .olt main_v14 main_v15
  fn_part1 (F := F) main_v13 main_v16
-- ==== Kernel.lean ====
abbrev S2048x16384 : Shape := ⟨2, ![2048, 16384]⟩
abbrev S64x128 : Shape := ⟨2, ![64, 128]⟩
abbrev S256x2048 : Shape := ⟨2, ![256, 2048]⟩
abbrev S8x128 : Shape := ⟨2, ![8, 128]⟩
abbrev S256 : Shape := ⟨1, ![256]⟩
abbrev S256x1 : Shape := ⟨2, ![256, 1]⟩
abbrev S1 : Shape := ⟨1, ![1]⟩
abbrev S1x1 : Shape := ⟨2, ![1, 1]⟩
abbrev S_ : Shape := ⟨0, ![]⟩

abbrev nBuf : Space → Nat
  | .hbm => 23
  | .vmem => 14
  | .smem => 0
  | _ => 0

abbrev bufTy : (tb : Table) → Fin (tcTables nBuf tb) → BufTy
  | .hbm, ⟨0, _⟩ => ⟨S2048x16384, .f32⟩
  | .hbm, ⟨1, _⟩ => ⟨S2048x16384, .f32⟩
  | .hbm, ⟨2, _⟩ => ⟨S2048x16384, .f32⟩
  | .hbm, ⟨3, _⟩ => ⟨S2048x16384, .f32⟩
  | .hbm, ⟨4, _⟩ => ⟨S64x128, .f32⟩
  | .hbm, ⟨5, _⟩ => ⟨S64x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_cst_3 : Ref sig .tc := ⟨.hbm, 14, rfl⟩
abbrev main_v5 : Ref sig .tc := ⟨.hbm, 15, rfl⟩
abbrev main_cst_4 : Ref sig .tc := ⟨.hbm, 16, rfl⟩
abbrev main_v6 : Ref sig .tc := ⟨.hbm, 17, rfl⟩
abbrev main_cst_5 : Ref sig .tc := ⟨.hbm, 18, rfl⟩
abbrev main_v7 : Ref sig .tc := ⟨.hbm, 19, rfl⟩
abbrev main_cst_6 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v84 : BitVec 1 := Scalar.cmpi .eq arg1 c7_i32
  let v85 : BitVec 32 := Scalar.extui v84
  let c0_i32_41 : BitVec 32 := 0#32
  let v86 : BitVec 1 := Scalar.cmpi .ne v85 c0_i32_41
  v86

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  reduces_S256x1_S1 : S256x1.Reduces [0] S1
  shapeCasts_S1_S1x1 : S1.ShapeCasts S1x1
  broadcasts_S1x1_S8x128 : S1x1.Broadcasts S8x128
  reducesTo_S64x128_S_d0_1 : S64x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x16384.size a
  hwx0_0 : ∀ i : grid0.Coords, EltTy.bits .f32 = 32 ∨ (Rect.block (s := S2048x16384) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x16384.size a
  hwx0_1 : ∀ i : grid0.Coords, EltTy.bits .f32 = 32 ∨ (Rect.block (s := S2048x16384) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x16384.size a
  hwx0_2 : ∀ i : grid0.Coords, EltTy.bits .f32 = 32 ∨ (Rect.block (s := S2048x16384) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x16384.size a
  hwx0_3 : ∀ i : grid0.Coords, EltTy.bits .f32 = 32 ∨ (Rect.block (s := S2048x16384) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S64x128.size a
  hwx0_4 : ∀ i : grid0.Coords, EltTy.bits .f32 = 32 ∨ (Rect.block (s := S64x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S64x128.size a
  hwx0_5 : ∀ i : grid0.Coords, EltTy.bits .f32 = 32 ∨ (Rect.block (s := S64x128) S8x128.size (cc0_transform_5 i) (hinb0_5 i)).WholeWords (EltTy.packing .f32)

variable [Facts₀]

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x16384 : Shape := ⟨2, ![2048, 16384]⟩
abbrev S4 : Shape := ⟨1, ![4]⟩
abbrev S_ : Shape := ⟨0, ![]⟩
abbrev S33554432 : Shape := ⟨1, ![33554432]⟩
abbrev S33554432x1 : Shape := ⟨2, ![33554432, 1]⟩

abbrev nBuf : Space → Nat
  | .hbm => 106
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S2048x16384, .f32⟩
  | .hbm, ⟨2, _⟩ => ⟨S2048x16384, .f32⟩
  | .hbm, ⟨3, _⟩ => ⟨S2048x16384, .f32⟩
  | .hbm, ⟨4, _⟩ => ⟨S4, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x16384, .f32⟩
  | .hbm, ⟨9, _⟩ => ⟨S2048x16384, .f32⟩
  | .hbm, ⟨10, _⟩ => ⟨S_, .f32⟩
  | .hbm, ⟨11, _⟩ => ⟨S2048x16384, .f32⟩
  | .hbm, ⟨12, _⟩ => ⟨S2048x16384, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2048x16384, .f32⟩
  | .hbm, ⟨17, _⟩ => ⟨S2048x16384, .f32⟩
  | .hbm, ⟨18, _⟩ => ⟨S_, .f32⟩
  | .hbm, ⟨19, _⟩ => ⟨S2048x16384, .f32⟩
  | .hbm, ⟨20, _⟩ => ⟨S2048x16384, .f32⟩
  | .hbm, ⟨21, _⟩ => ⟨S2048x16384, .f32⟩
  | .hbm, ⟨22, _⟩ => ⟨S_, .f32⟩
  | .hbm, ⟨23, _⟩ => ⟨S2048x16384, .f32⟩
  | .hbm, ⟨24, _⟩ => ⟨S2048x16384, .f32⟩
  | .hbm, ⟨25, _⟩ => ⟨S2048x16384, .f32⟩
  | .hbm, ⟨26, _⟩ => ⟨S2048x16384, .f32⟩
  | .hbm, ⟨27, _⟩ => ⟨S_, .f32⟩
  | .hbm, ⟨28, _⟩ => ⟨S2048x16384, .f32⟩
  | .hbm, ⟨29, _⟩ => ⟨S2048x16384, .f32⟩
  | .hbm, ⟨30, _⟩ => ⟨S2048x16384, .f32⟩
  | .hbm, ⟨31, _⟩ => ⟨S_, .f32⟩
  | .hbm, ⟨32, _⟩ => ⟨S2048x16384, .f32⟩
  | .hbm, ⟨33, _⟩ => ⟨S2048x16384, .f32⟩
  | .hbm, ⟨34, _⟩ => ⟨S2048x16384, .f32⟩
  | .hbm, ⟨35, _⟩ => ⟨S2048x16384, .f32⟩
  | .hbm, ⟨36, _⟩ => ⟨S2048x16384, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S33554432, .f32⟩
  | .hbm, ⟨42, _⟩ => ⟨S33554432, .f32⟩
  | .hbm, ⟨43, _⟩ => ⟨S33554432, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S33554432, .f32⟩
  | .hbm, ⟨48, _⟩ => ⟨S33554432, .f32⟩
  | .hbm, ⟨49, _⟩ => ⟨S_, .f32⟩
  | .hbm, ⟨50, _⟩ => ⟨S33554432, .f32⟩
  | .hbm, ⟨51, _⟩ => ⟨S33554432, .f32⟩
  | .hbm, ⟨52, _⟩ => ⟨S33554432, .i32⟩
  | .hbm, ⟨53, _⟩ => ⟨S_, .i32⟩
  | .hbm, ⟨54, _⟩ => ⟨S33554432, .i32⟩
  | .hbm, ⟨55, _⟩ => ⟨S33554432, .i1⟩
  | .hbm, ⟨56, _⟩ => ⟨S_, .i32⟩
  | .hbm, ⟨57, _⟩ => ⟨S33554432, .i32⟩
  | .hbm, ⟨58, _⟩ => ⟨S33554432, .i32⟩
  | .hbm, ⟨59, _⟩ => ⟨S33554432, .i32⟩
  | .hbm, ⟨60, _⟩ => ⟨S33554432x1, .i32⟩
  | .hbm, ⟨61, _⟩ => ⟨S33554432, .f32⟩
  | .hbm, ⟨62, _⟩ => ⟨S33554432, .f32⟩
  | .hbm, ⟨63, _⟩ => ⟨S33554432, .f32⟩
  | .hbm, ⟨64, _⟩ => ⟨S_, .f32⟩
  | .hbm, ⟨65, _⟩ => ⟨S33554432, .f32⟩
  | .hbm, ⟨66, _⟩ => ⟨S33554432, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S33554432, .f32⟩
  | .hbm, ⟨71, _⟩ => ⟨S33554432, .f32⟩
  | .hbm, ⟨72, _⟩ => ⟨S_, .f32⟩
  | .hbm, ⟨73, _⟩ => ⟨S33554432, .f32⟩
  | .hbm, ⟨74, _⟩ => ⟨S33554432, .f32⟩
  | .hbm, ⟨75, _⟩ => ⟨S_, .f32⟩
  | .hbm, ⟨76, _⟩ => ⟨S33554432, .f32⟩
  | .hbm, ⟨77, _⟩ => ⟨S33554432, .f32⟩
  | .hbm, ⟨78, _⟩ => ⟨S_, .f32⟩
  | .hbm, ⟨79, _⟩ => ⟨S33554432, .f32⟩
  | .hbm, ⟨80, _⟩ => ⟨S33554432, .i1⟩
  | .hbm, ⟨81, _⟩ => ⟨S_, .f32⟩
  | .hbm, ⟨82, _⟩ => ⟨S33554432, .f32⟩
  | .hbm, ⟨83, _⟩ => ⟨S33554432, .f32⟩
  | .hbm, ⟨84, _⟩ => ⟨S33554432, .f32⟩
  | .hbm, ⟨85, _⟩ => ⟨S_, .f32⟩
  | .hbm, ⟨86, _⟩ => ⟨S33554432, .f32⟩
  | .hbm, ⟨87, _⟩ => ⟨S33554432, .f32⟩
  | .hbm, ⟨88, _⟩ => ⟨S_, .f32⟩
  | .hbm, ⟨89, _⟩ => ⟨S33554432, .f32⟩
  | .hbm, ⟨90, _⟩ => ⟨S33554432, .f32⟩
  | .hbm, ⟨91, _⟩ => ⟨S33554432, .f32⟩
  | .hbm, ⟨92, _⟩ => ⟨S_, .f32⟩
  | .hbm, ⟨93, _⟩ => ⟨S33554432, .f32⟩
  | .hbm, ⟨94, _⟩ => ⟨S33554432, .f32⟩
  | .hbm, ⟨95, _⟩ => ⟨S33554432, .f32⟩
  | .hbm, ⟨96, _⟩ => ⟨S33554432, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v1 : Ref sig .tc := ⟨.hbm, 20, rfl⟩
abbrev main_v2 : Ref sig .tc := ⟨.hbm, 21, rfl⟩
abbrev main_cst_4 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_5 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_6 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_7 : Ref sig .tc := ⟨.hbm, 37, rfl⟩
abbrev main_v15 : Ref sig .tc := ⟨.hbm, 38, rfl⟩
abbrev main_cst_8 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_9 : Ref sig .tc := ⟨.hbm, 44, rfl⟩
abbrev main_cst_10 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_v20 : Ref sig .tc := ⟨.hbm, 51, rfl⟩
abbrev main_v21 : Ref sig .tc := ⟨.hbm, 52, rfl⟩
abbrev main_c : Ref sig .tc := ⟨.hbm, 53, rfl⟩
abbrev main_v22 : Ref sig .tc := ⟨.hbm, 54, rfl⟩
abbrev main_v23 : Ref sig .tc := ⟨.hbm, 55, rfl⟩
abbrev main_c_11 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_12 : Ref sig .tc := ⟨.hbm, 64, rfl⟩
abbrev main_v31 : Ref sig .tc := ⟨.hbm, 65, rfl⟩
abbrev main_v32 : Ref sig .tc := ⟨.hbm, 66, rfl⟩
abbrev main_cst_13 : Ref sig .tc := ⟨.hbm, 67, rfl⟩
abbrev main_cst_14 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_v33 : Ref sig .tc := ⟨.hbm, 74, rfl⟩
abbrev main_cst_15 : Ref sig .tc := ⟨.hbm, 75, rfl⟩
abbrev main_v34 : Ref sig .tc := ⟨.hbm, 76, rfl⟩
abbrev main_v35 : Ref sig .tc := ⟨.hbm, 77, rfl⟩
abbrev main_cst_16 : Ref sig .tc := ⟨.hbm, 78, rfl⟩
abbrev main_v36 : Ref sig .tc := ⟨.hbm, 79, rfl⟩
abbrev main_v37 : Ref sig .tc := ⟨.hbm, 80, rfl⟩
abbrev main_cst_17 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_18 : Ref sig .tc := ⟨.hbm, 85, rfl⟩
abbrev main_v41 : Ref sig .tc := ⟨.hbm, 86, rfl⟩
abbrev main_v42 : Ref sig .tc := ⟨.hbm, 87, rfl⟩
abbrev main_cst_19 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_20 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_cst_21 : Ref sig .tc := ⟨.hbm, 97, rfl⟩
abbrev main_v50 : Ref sig .tc := ⟨.hbm, 98, rfl⟩
abbrev main_cst_22 : Ref sig .tc := ⟨.hbm, 99, rfl⟩
abbrev main_v51 : Ref sig .tc := ⟨.hbm, 100, rfl⟩
abbrev main_cst_23 : Ref sig .tc := ⟨.hbm, 101, rfl⟩
abbrev main_v52 : Ref sig .tc := ⟨.hbm, 102, rfl⟩
abbrev main_cst_24 : Ref sig .tc := ⟨.hbm, 103, rfl⟩
abbrev main_v53 : Ref sig .tc := ⟨.hbm, 104, rfl⟩
abbrev main_v54 : Ref sig .tc := ⟨.hbm, 105, rfl⟩

abbrev nD : Nat := 1
abbrev τ : Topo := Topo.v7x

variable {F : FTy → Type} [FloatOps F]

class Facts₀ : Prop where
  bcast_S_S2048x16384 : S_.BroadcastsInDim S2048x16384 (![] : Fin 0 → Fin S2048x16384.rank)
  reducesTo_S2048x16384_S_d0_1 : S2048x16384.ReducesTo [0, 1] S_
  h_S_ : 0 < S_.numel
  shapeCasts_S2048x16384_S33554432 : S2048x16384.ShapeCasts S33554432
  bcast_S_S33554432 : S_.BroadcastsInDim S33554432 (![] : Fin 0 → Fin S33554432.rank)
  bcast_S33554432_S33554432x1_0 : S33554432.BroadcastsInDim S33554432x1 (![0] : Fin 1 → Fin S33554432x1.rank)
  reducesTo_S33554432_S_d0 : S33554432.ReducesTo [0] S_
  gather_S4_S33554432x1_S33554432_n_0_n_n_0_1_1_wf : GatherDims.WF S4 S33554432x1 S33554432 [] [0] [] [0] [] 1 ![1]

variable [Facts₀]

def gather_S4_S33554432x1_S33554432_n_0_n_n_0_1_1 : GatherDims S4 S33554432x1 S33554432 where
  offsetDims := []
  collapsedSliceDims := [0]
  operandBatchingDims := []
  startIndicesBatchingDims := []
  startIndexMap := [0]
  indexVectorDim := 1
  sliceSizes := ![1]
  wf := gather_S4_S33554432x1_S33554432_n_0_n_n_0_1_1_wf

class Facts : Prop extends Facts₀ where

variable [Facts]
-- ==== Proof.KernelPieces.lean ====
import proofs.«127027_j80341658239297_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-!
  What one grid point leaves in the two accumulators and, at the last point of a row of tiles, in the
  two output blocks — each as a payload of the point's four input blocks and of what the
  accumulators held before the point.  Every store of the body covers its whole 8 x 128 buffer, so a
  buffer's contents after the body are its last store's payload, and a load after a store reads that
  store's payload.

  At the first tile of a row (case A) both accumulators are first set to the zero block and then
  added into; at the other tiles (cases B, C) they are added into what the tile before left; at the
  last tile (case C) they are also copied to the output blocks.
-/

namespace Cert.KernelIdeal.KPieces
open Cert.KernelIdeal Cert.KernelIdeal.Gen
variable {F : FTy → Type} [FloatOps F]

theorem hz : (![0, 0] : Fin 2 → Nat) = fun _ => 0 := funext fun a => by fin_cases a <;> rfl

/-- First tile of a row: the cross-entropy accumulator is the zero block plus the tile's total. -/
theorem soutA0 (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S8x128 .f32) (h6 : a6.IsWhole) (a7 : Memref sig .tc .vmem S8x128 .f32) (h7 : a7.IsWhole) (a8 : Memref sig .tc .vmem S8x128 .f32) (h8 : a8.IsWhole) (a9 : Memref sig .tc .vmem S8x128 .f32) (h9 : a9.IsWhole) (hc0 : cond0_0 i) (hc1 : ¬cond0_1 i)
    (x0 x1 x2 x3 : Vec F S256x2048 .f32) :
    sout0_A_0 c i a2 h2 a3 h3 a4 h4 a5 h5 a6 h6 a7 h7 a8 h8 a9 h9 hc0 hc1 x0 x1 x2 x3 = k0_pay5 (k0_pay4 x0 x2 k0_pay2) := by
  unfold sout0_A_0
  rw [View.read_writes_eq_canon _ _ _ (scover0_A_0 c i a2 h2 a3 h3 a4 h4 a5 h5 a6 h6 a7 h7 a8 h8 a9 h9 hc0 hc1 x0 x1 x2 x3)]
  unfold kernelRun0_A
  dsimp only
  sl_unfold_words
  rw [View.canon_cons_unit_zero (S := S8x128) hz]
  rw [View.readCov_unit_zero (S := S8x128) _ hz]
  simp only [View.readAt_eq_ld, h2.read_unread, h3.read_unread, h4.read_unread, h5.read_unread, h8.read_unread, h9.read_unread,
    View.ld_unit_zero (S := S256x2048) hz, View.ld_unit_zero (S := S8x128) hz]

/-- First tile of a row: the regression accumulator is the zero block plus the tile's total. -/
theorem soutA1 (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S8x128 .f32) (h6 : a6.IsWhole) (a7 : Memref sig .tc .vmem S8x128 .f32) (h7 : a7.IsWhole) (a8 : Memref sig .tc .vmem S8x128 .f32) (h8 : a8.IsWhole) (a9 : Memref sig .tc .vmem S8x128 .f32) (h9 : a9.IsWhole) (hc0 : cond0_0 i) (hc1 : ¬cond0_1 i)
    (x0 x1 x2 x3 : Vec F S256x2048 .f32) :
    sout0_A_1 c i a2 h2 a3 h3 a4 h4 a5 h5 a6 h6 a7 h7 a8 h8 a9 h9 hc0 hc1 x0 x1 x2 x3 = k0_pay1 (k0_pay6 x1 x3) k0_pay3 := by
  unfold sout0_A_1
  rw [View.read_writes_eq_canon _ _ _ (scover0_A_1 c i a2 h2 a3 h3 a4 h4 a5 h5 a6 h6 a7 h7 a8 h8 a9 h9 hc0 hc1 x0 x1 x2 x3)]
  unfold kernelRun0_A
  dsimp only
  sl_unfold_words
  rw [View.canon_cons_unit_zero (S := S8x128) hz]
  rw [View.readCov_unit_zero (S := S8x128) _ hz]
  simp only [View.readAt_eq_ld, h2.read_unread, h3.read_unread, h4.read_unread, h5.read_unread, h8.read_unread, h9.read_unread,
    View.ld_unit_zero (S := S256x2048) hz, View.ld_unit_zero (S := S8x128) hz]

/-- A middle tile: the cross-entropy accumulator gains the tile's total. -/
theorem soutB0 (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S8x128 .f32) (h6 : a6.IsWhole) (a7 : Memref sig .tc .vmem S8x128 .f32) (h7 : a7.IsWhole) (a8 : Memref sig .tc .vmem S8x128 .f32) (h8 : a8.IsWhole) (a9 : Memref sig .tc .vmem S8x128 .f32) (h9 : a9.IsWhole) (hc0 : ¬cond0_0 i) (hc1 : ¬cond0_1 i)
    (x0 x1 x2 x3 : Vec F S256x2048 .f32) (xs0 xs1 : Vec F S8x128 .f32) :
    sout0_B_0 c i a2 h2 a3 h3 a4 h4 a5 h5 a6 h6 a7 h7 a8 h8 a9 h9 hc0 hc1 x0 x1 x2 x3 xs0 xs1 = k0_pay5 (k0_pay4 x0 x2 xs0) := by
  unfold sout0_B_0
  rw [View.read_writes_eq_canon _ _ _ (scover0_B_0 c i a2 h2 a3 h3 a4 h4 a5 h5 a6 h6 a7 h7 a8 h8 a9 h9 hc0 hc1 x0 x1 x2 x3 xs0 xs1)]
  unfold kernelRun0_B
  dsimp only
  sl_unfold_words
  rw [View.canon_unit_zero hz]
  simp only [View.readAt_eq_ld, h2.read_unread, h3.read_unread, h4.read_unread, h5.read_unread, h8.read_unread, h9.read_unread,
    View.ld_unit_zero (S := S256x2048) hz, View.ld_unit_zero (S := S8x128) hz]

/-- A middle tile: the regression accumulator gains the tile's total. -/
theorem soutB1 (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S8x128 .f32) (h6 : a6.IsWhole) (a7 : Memref sig .tc .vmem S8x128 .f32) (h7 : a7.IsWhole) (a8 : Memref sig .tc .vmem S8x128 .f32) (h8 : a8.IsWhole) (a9 : Memref sig .tc .vmem S8x128 .f32) (h9 : a9.IsWhole) (hc0 : ¬cond0_0 i) (hc1 : ¬cond0_1 i)
    (x0 x1 x2 x3 : Vec F S256x2048 .f32) (xs0 xs1 : Vec F S8x128 .f32) :
    sout0_B_1 c i a2 h2 a3 h3 a4 h4 a5 h5 a6 h6 a7 h7 a8 h8 a9 h9 hc0 hc1 x0 x1 x2 x3 xs0 xs1 = k0_pay1 (k0_pay6 x1 x3) xs1 := by
  unfold sout0_B_1
  rw [View.read_writes_eq_canon _ _ _ (scover0_B_1 c i a2 h2 a3 h3 a4 h4 a5 h5 a6 h6 a7 h7 a8 h8 a9 h9 hc0 hc1 x0 x1 x2 x3 xs0 xs1)]
  unfold kernelRun0_B
  dsimp only
  sl_unfold_words
  rw [View.canon_unit_zero hz]
  simp only [View.readAt_eq_ld, h2.read_unread, h3.read_unread, h4.read_unread, h5.read_unread, h8.read_unread, h9.read_unread,
    View.ld_unit_zero (S := S256x2048) hz, View.ld_unit_zero (S := S8x128) hz]

/-- The last tile: the cross-entropy accumulator gains the tile's total. -/
theorem soutC0 (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S8x128 .f32) (h6 : a6.IsWhole) (a7 : Memref sig .tc .vmem S8x128 .f32) (h7 : a7.IsWhole) (a8 : Memref sig .tc .vmem S8x128 .f32) (h8 : a8.IsWhole) (a9 : Memref sig .tc .vmem S8x128 .f32) (h9 : a9.IsWhole) (hc0 : ¬cond0_0 i) (hc1 : cond0_1 i)
    (x0 x1 x2 x3 : Vec F S256x2048 .f32) (xs0 xs1 : Vec F S8x128 .f32) :
    sout0_C_0 c i a2 h2 a3 h3 a4 h4 a5 h5 a6 h6 a7 h7 a8 h8 a9 h9 hc0 hc1 x0 x1 x2 x3 xs0 xs1 = k0_pay5 (k0_pay4 x0 x2 xs0) := by
  unfold sout0_C_0
  rw [View.read_writes_eq_canon _ _ _ (scover0_C_0 c i a2 h2 a3 h3 a4 h4 a5 h5 a6 h6 a7 h7 a8 h8 a9 h9 hc0 hc1 x0 x1 x2 x3 xs0 xs1)]
  unfold kernelRun0_C
  dsimp only
  sl_unfold_words
  rw [View.canon_unit_zero hz]
  simp only [View.readAt_eq_ld, h2.read_unread, h3.read_unread, h4.read_unread, h5.read_unread, h8.read_unread, h9.read_unread,
    View.ld_unit_zero (S := S256x2048) hz, View.ld_unit_zero (S := S8x128) hz]

/-- The last tile: the regression accumulator gains the tile's total. -/
theorem soutC1 (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S8x128 .f32) (h6 : a6.IsWhole) (a7 : Memref sig .tc .vmem S8x128 .f32) (h7 : a7.IsWhole) (a8 : Memref sig .tc .vmem S8x128 .f32) (h8 : a8.IsWhole) (a9 : Memref sig .tc .vmem S8x128 .f32) (h9 : a9.IsWhole) (hc0 : ¬cond0_0 i) (hc1 : cond0_1 i)
    (x0 x1 x2 x3 : Vec F S256x2048 .f32) (xs0 xs1 : Vec F S8x128 .f32) :
    sout0_C_1 c i a2 h2 a3 h3 a4 h4 a5 h5 a6 h6 a7 h7 a8 h8 a9 h9 hc0 hc1 x0 x1 x2 x3 xs0 xs1 = k0_pay1 (k0_pay6 x1 x3) xs1 := by
  unfold sout0_C_1
  rw [View.read_writes_eq_canon _ _ _ (scover0_C_1 c i a2 h2 a3 h3 a4 h4 a5 h5 a6 h6 a7 h7 a8 h8 a9 h9 hc0 hc1 x0 x1 x2 x3 xs0 xs1)]
  unfold kernelRun0_C
  dsimp only
  sl_unfold_words
  rw [View.canon_unit_zero hz]
  simp only [View.readAt_eq_ld, h2.read_unread, h3.read_unread, h4.read_unread, h5.read_unread, h8.read_unread, h9.read_unread,
    View.ld_unit_zero (S := S256x2048) hz, View.ld_unit_zero (S := S8x128) hz]

/-- The last tile: the first output block is a copy of the cross-entropy accumulator. -/
theorem outC4 (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S8x128 .f32) (h6 : a6.IsWhole) (a7 : Memref sig .tc .vmem S8x128 .f32) (h7 : a7.IsWhole) (a8 : Memref sig .tc .vmem S8x128 .f32) (h8 : a8.IsWhole) (a9 : Memref sig .tc .vmem S8x128 .f32) (h9 : a9.IsWhole) (hc0 : ¬cond0_0 i) (hc1 : cond0_1 i)
    (x0 x1 x2 x3 : Vec F S256x2048 .f32) (xs0 xs1 : Vec F S8x128 .f32) :
    out0_C_4 c i a2 h2 a3 h3 a4 h4 a5 h5 a6 h6 a7 h7 a8 h8 a9 h9 hc0 hc1 x0 x1 x2 x3 xs0 xs1 = k0_pay5 (k0_pay4 x0 x2 xs0) := by
  unfold out0_C_4
  rw [View.read_writes_eq_canon _ _ _ (cover0_C_4 c i a2 h2 a3 h3 a4 h4 a5 h5 a6 h6 a7 h7 a8 h8 a9 h9 hc0 hc1 x0 x1 x2 x3 xs0 xs1)]
  unfold kernelRun0_C
  dsimp only
  sl_unfold_words
  rw [View.canon_unit_zero hz]
  rw [View.readCov_unit_zero (S := S8x128) _ hz]
  simp only [View.readAt_eq_ld, h2.read_unread, h3.read_unread, h4.read_unread, h5.read_unread, h8.read_unread, h9.read_unread,
    View.ld_unit_zero (S := S256x2048) hz, View.ld_unit_zero (S := S8x128) hz]

/-- The last tile: the second output block is a copy of the regression accumulator. -/
theorem outC5 (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S8x128 .f32) (h6 : a6.IsWhole) (a7 : Memref sig .tc .vmem S8x128 .f32) (h7 : a7.IsWhole) (a8 : Memref sig .tc .vmem S8x128 .f32) (h8 : a8.IsWhole) (a9 : Memref sig .tc .vmem S8x128 .f32) (h9 : a9.IsWhole) (hc0 : ¬cond0_0 i) (hc1 : cond0_1 i)
    (x0 x1 x2 x3 : Vec F S256x2048 .f32) (xs0 xs1 : Vec F S8x128 .f32) :
    out0_C_5 c i a2 h2 a3 h3 a4 h4 a5 h5 a6 h6 a7 h7 a8 h8 a9 h9 hc0 hc1 x0 x1 x2 x3 xs0 xs1 = k0_pay1 (k0_pay6 x1 x3) xs1 := by
  unfold out0_C_5
  rw [View.read_writes_eq_canon _ _ _ (cover0_C_5 c i a2 h2 a3 h3 a4 h4 a5 h5 a6 h6 a7 h7 a8 h8 a9 h9 hc0 hc1 x0 x1 x2 x3 xs0 xs1)]
  unfold kernelRun0_C
  dsimp only
  sl_unfold_words
  rw [View.canon_unit_zero hz]
  rw [View.readCov_unit_zero (S := S8x128) _ hz]
  simp only [View.readAt_eq_ld, h2.read_unread, h3.read_unread, h4.read_unread, h5.read_unread, h8.read_unread, h9.read_unread,
    View.ld_unit_zero (S := S256x2048) hz, View.ld_unit_zero (S := S8x128) hz]

end Cert.KernelIdeal.KPieces

end
-- ==== Proof.Spec.lean ====
/-
  The two losses as functions of the four argument arrays, index by index, on the extended reals.

  Each element function below is written in the exact spelling its program's pointwise operations
  take at an index (`max`, `min`, `*`, `+`, `-`, `Ideal.div`, `Ideal.cmp`, `Scalar.select`, float
  literals as their binary words), so that reading a program at an index lands on it with no
  algebra.  The kernel's and the reference's element functions differ in spelling only
  (`0 - x` against `-x`, `d * 2` against `d / 0.5`, `c * c` against `c ^ 2`, a compare-and-select
  against a four-entry table); that they agree on real arguments is the subject of another module.

  The break loss is a binary cross entropy with both logarithms clamped below at -100, averaged over
  the 2048 x 16384 entries; the regression loss is a focal smooth-L1 term weighted by the class of
  the rounded target, averaged likewise; the total is their sum (both weights are 1).

  The kernel walks the arrays in 8 x 8 tiles of 256 x 2048 entries: a tile's terms are summed along
  its rows, then down its column of row sums, and the scalar is added to every cell of an 8 x 128
  accumulator; after the last tile of a row of tiles the accumulator is written out as block
  `bi` of a 64 x 128 array.  Summing that array counts every row-of-tiles total 1024 times, which
  the division by 1024 undoes before the division by the number of entries 2^25.
-/
import Idealize.ShloMosaic.PureOps.Ideal
import Idealize.ShloMosaic.PureOps.Ideal.Laws
import Idealize.ShloMosaic.Lib.ValueIdx

noncomputable section

namespace Cert.Loss

open Idealize.ShloMosaic Idealize.ShloMosaic.ValueIdx

/-- The argument arrays' shape, the kernel's output arrays' shape, and a tile's shape. -/
abbrev SA : Shape := ⟨2, ![2048, 16384]⟩
abbrev SO : Shape := ⟨2, ![64, 128]⟩
abbrev ST : Shape := ⟨2, ![256, 2048]⟩

/-! ## The kernel's element functions -/

/-- The kernel's cross-entropy term of a prediction `p` and a target `t`: both clipped to [0, 1],
    `0 - (t * max (log p) (-100) + (1 - t) * max (log1p (0 - p)) (-100))`. -/
def kBce (p t : EReal) : EReal :=
  Ideal.ofBits .f32 0x00000000#32 -
    (min (Ideal.ofBits .f32 0x3F800000#32) (max (Ideal.ofBits .f32 0x00000000#32) t)
        * max (Ideal.log (min (Ideal.ofBits .f32 0x3F800000#32) (max (Ideal.ofBits .f32 0x00000000#32) p)))
            (Ideal.ofBits .f32 0xC2C80000#32)
      + (Ideal.ofBits .f32 0x3F800000#32
            - min (Ideal.ofBits .f32 0x3F800000#32) (max (Ideal.ofBits .f32 0x00000000#32) t))
        * max (Ideal.log1p (Ideal.ofBits .f32 0x00000000#32
                - min (Ideal.ofBits .f32 0x3F800000#32) (max (Ideal.ofBits .f32 0x00000000#32) p)))
            (Ideal.ofBits .f32 0xC2C80000#32))

/-- The class of a regression target as an extended real: rounded to the nearest integer (ties to even), clipped to [0, 3]. -/
def cls (y : EReal) : EReal :=
  min (Ideal.ofBits .f32 0x40400000#32) (max (Ideal.ofBits .f32 0x00000000#32) (Ideal.liftRound Ideal.roundHalfEven y))

/-- The kernel's class weight: 1 for class 0 (the class is below one half), else 5 minus the class. -/
def kWeight (y : EReal) : EReal :=
  Scalar.select (Ideal.cmp .olt (cls y) (Ideal.ofBits .f32 0x3F000000#32))
    (Ideal.ofBits .f32 0x3F800000#32) (Ideal.ofBits .f32 0x40A00000#32 - cls y)

/-- The absolute error `|yp - yt|`, as the programs compute it: the larger of the difference and its negation. -/
def absErr (yp yt : EReal) : EReal := max (yp - yt) (-(yp - yt))

/-- The kernel's regression term of a prediction `yp` and a target `yt`, with `d = |yp - yt|`:
    `((1/4 * c * c) * base) * weight`, `c = clip (d * 2) 0 1`, `base = (1/2 * d * d) * 2` where `d < 1/2`, else `d - 1/4`. -/
def kRegEl (yp yt : EReal) : EReal :=
  ((Ideal.ofBits .f32 0x3E800000#32
      * (min (Ideal.ofBits .f32 0x3F800000#32) (max (Ideal.ofBits .f32 0x00000000#32) (absErr yp yt * Ideal.ofBits .f32 0x40000000#32))
         * min (Ideal.ofBits .f32 0x3F800000#32) (max (Ideal.ofBits .f32 0x00000000#32) (absErr yp yt * Ideal.ofBits .f32 0x40000000#32))))
    * Scalar.select (Ideal.cmp .olt (absErr yp yt) (Ideal.ofBits .f32 0x3F000000#32))
        (((Ideal.ofBits .f32 0x3F000000#32 * absErr yp yt) * absErr yp yt) * Ideal.ofBits .f32 0x40000000#32)
        (absErr yp yt - Ideal.ofBits .f32 0x3E800000#32))
  * kWeight yt

/-! ## The reference's element functions -/

/-- The reference's cross-entropy term: the kernel's with true negations, `-(t * … + (1 - t) * max (log1p (-p)) (-100))`. -/
def rBce (p t : EReal) : EReal :=
  -(min (Ideal.ofBits .f32 0x3F800000#32) (max (Ideal.ofBits .f32 0x00000000#32) t)
        * max (Ideal.log (min (Ideal.ofBits .f32 0x3F800000#32) (max (Ideal.ofBits .f32 0x00000000#32) p)))
            (Ideal.ofBits .f32 0xC2C80000#32)
      + (Ideal.ofBits .f32 0x3F800000#32
            - min (Ideal.ofBits .f32 0x3F800000#32) (max (Ideal.ofBits .f32 0x00000000#32) t))
        * max (Ideal.log1p (-(min (Ideal.ofBits .f32 0x3F800000#32) (max (Ideal.ofBits .f32 0x00000000#32) p))))
            (Ideal.ofBits .f32 0xC2C80000#32))

/-- The reference's regression term with the class weight `w` it looked up given:
    `((1/4 * (clip (d / (1/2)) 0 1) ^ 2) * base) * w`, `base = (1/2 * d * d) / (1/2)` where `d < 1/2`, else `d - 1/4`. -/
def rRegEl (w yp yt : EReal) : EReal :=
  ((Ideal.ofBits .f32 0x3E800000#32
      * Ideal.pow (min (Ideal.ofBits .f32 0x3F800000#32) (max (Ideal.ofBits .f32 0x00000000#32)
          (Ideal.div (absErr yp yt) (Ideal.ofBits .f32 0x3F000000#32)))) (Ideal.ofBits .f32 0x40000000#32))
    * Scalar.select (Ideal.cmp .olt (absErr yp yt) (Ideal.ofBits .f32 0x3F000000#32))
        (Ideal.div ((Ideal.ofBits .f32 0x3F000000#32 * absErr yp yt) * absErr yp yt) (Ideal.ofBits .f32 0x3F000000#32))
        (absErr yp yt - Ideal.ofBits .f32 0x3E800000#32))
  * w

/-! ## The kernel's three results -/

/-- The sum of `f` over one tile's 256 x 2048 entries: along each row, then over the rows. -/
def blockSum (f : EReal → EReal → EReal) (x y : ST.Idx → EReal) : EReal :=
  ∑ a : Fin 256, ∑ b : Fin 2048, f (x (ix2 a b)) (y (ix2 a b))

/-- Entry `(a, b)` of tile `(bi, bj)` is entry `(256 bi + a, 2048 bj + b)` of the array. -/
def tileIx (bi bj : Fin 8) (a : Fin 256) (b : Fin 2048) : SA.Idx :=
  ix2 (⟨256 * bi.val + a.val, by omega⟩ : Fin 2048) (⟨2048 * bj.val + b.val, by omega⟩ : Fin 16384)

/-- Tile `(bi, bj)` of an array. -/
def tile (X : SA.Idx → EReal) (bi bj : Fin 8) : ST.Idx → EReal := fun y => X (tileIx bi bj (y 0) (y 1))

/-- The sum of `f` over tile `(bi, bj)` of two arrays. -/
def tileSum (f : EReal → EReal → EReal) (X Y : SA.Idx → EReal) (bi bj : Fin 8) : EReal :=
  ∑ a : Fin 256, ∑ b : Fin 2048, f (X (tileIx bi bj a b)) (Y (tileIx bi bj a b))

/-- The row of tiles an output cell belongs to: rows 8 bi … 8 bi + 7 of the 64 x 128 output are block `bi`. -/
def outBlk (i : SO.Idx) : Fin 8 := ⟨(i 0).val / 8, Nat.div_lt_of_lt_mul (idx2_lt0 i)⟩

/-- What the kernel leaves in each cell of an output array: the total of `f` over the cell's row of tiles. -/
def kOut (f : EReal → EReal → EReal) (X Y : SA.Idx → EReal) : SO.Idx → EReal :=
  fun i => ∑ bj : Fin 8, tileSum f X Y (outBlk i) bj

/-- The host's tail on an output array: its total from 0, divided by 1024, divided by 2^25. -/
def kMean (O : SO.Idx → EReal) : EReal :=
  Ideal.div (Ideal.div (Ideal.ofBits .f32 0x00000000#32 + ∑ i : SO.Idx, O i) (Ideal.ofBits .f32 0x44800000#32))
    (Ideal.ofBits .f32 0x4C000000#32)

def kBreak (A0 A2 : SA.Idx → EReal) : EReal := kMean (kOut kBce A0 A2)
def kReg (A1 A3 : SA.Idx → EReal) : EReal := kMean (kOut kRegEl A1 A3)
def kTotal (A0 A1 A2 A3 : SA.Idx → EReal) : EReal :=
  Ideal.ofBits .f32 0x3F800000#32 * kBreak A0 A2 + Ideal.ofBits .f32 0x3F800000#32 * kReg A1 A3

/-! ## The reference's three results -/

/-- The reference's mean: the total from 0 over all entries, divided by 2^25. -/
def rMean (T : SA.Idx → EReal) : EReal :=
  Ideal.div (Ideal.ofBits .f32 0x00000000#32 + ∑ i : SA.Idx, T i) (Ideal.ofBits .f32 0x4C000000#32)

def rBreak (A0 A2 : SA.Idx → EReal) : EReal := rMean fun i => rBce (A0 i) (A2 i)
/-- With `W i` the class weight the reference looked up for entry `i`. -/
def rReg (W A1 A3 : SA.Idx → EReal) : EReal := rMean fun i => rRegEl (W i) (A1 i) (A3 i)
def rTotal (W A0 A1 A2 A3 : SA.Idx → EReal) : EReal :=
  Ideal.ofBits .f32 0x3F800000#32 * rBreak A0 A2 + Ideal.ofBits .f32 0x3F800000#32 * rReg W A1 A3

end Cert.Loss

end
-- ==== Proof.KernelTile.lean ====
import proofs.«127027_j80341658239297_2_alg».proof.Proof.Gen.KernelIdeal.Frame.Runs
import proofs.«127027_j80341658239297_2_alg».proof.Proof.Spec
import Idealize.ShloMosaic.Lib.Pipeline.Value

noncomputable section

open Idealize.ShloMosaic Idealize.ShloMosaic.TcCoe Idealize.SL.Sem
open Idealize.ShloMosaic.Pipeline (Dat)

/-!
  The four input blocks a grid point is handed are tiles of the four argument arrays.

  Grid point `t` of the 8 x 8 grid has coordinates `(t / 8, t % 8)`, and all four input windows
  take the block with exactly those block indices; element `(a, b)` of a 256 x 2048 block with
  block indices `(bi, bj)` is element `(256 bi + a, 2048 bj + b)` of the array.  Hence the sum of
  an element function over a point's pair of blocks is its sum over the corresponding tile of the
  two arrays.
-/

namespace Cert.KernelIdeal.KTile
open Cert.Loss Cert.KernelIdeal Cert.KernelIdeal.Gen Idealize.ShloMosaic.ValueIdx

variable (m : (ℓ : Loc nD τ sig) → Buf (Elt Ideal) ℓ)

theorem lt64 (t : Fin cfg0.N) : t.val < 64 := lt_of_lt_of_eq t.isLt (show cfg0.N = 64 from N_0)

/-- The row of tiles grid point `t` works on, -/
def tbi (t : Fin cfg0.N) : Fin 8 := ⟨t.val / 8, by have := lt64 t; omega⟩
/-- and the tile's place in that row. -/
def tbj (t : Fin cfg0.N) : Fin 8 := ⟨t.val % 8, by omega⟩

/-- Every input window's block indices at point `t` are `(t / 8, t % 8)`. -/
theorem idx_facts : ∀ t : Fin cfg0.N,
    (win0_0.index t (0 : Fin 2) = t.val / 8 ∧ win0_0.index t (1 : Fin 2) = t.val % 8)
    ∧ (win0_1.index t (0 : Fin 2) = t.val / 8 ∧ win0_1.index t (1 : Fin 2) = t.val % 8)
    ∧ (win0_2.index t (0 : Fin 2) = t.val / 8 ∧ win0_2.index t (1 : Fin 2) = t.val % 8)
    ∧ (win0_3.index t (0 : Fin 2) = t.val / 8 ∧ win0_3.index t (1 : Fin 2) = t.val % 8) :=
  (by decide +kernel : ∀ t : Fin grid0.N, _)

set_option maxHeartbeats 400000 in
/-- Window 0's block at point `t` is tile `(t / 8, t % 8)` of argument 0. -/
theorem iblk0 (c : Dev nD) (t : Fin cfg0.N) :
    (iblk m c 0 t : Vec Ideal S256x2048 .f32) = tile (m ((c.tc : Thread nD τ).loc main_arg0)) (tbi t) (tbj t) := by
  obtain ⟨h0, h1⟩ := (idx_facts t).1
  funext y
  unfold iblk
  rw [View.read_apply]
  show m ((c.tc : Thread nD τ).loc main_arg0) _ = _
  unfold tile
  refine congrArg _ ?_
  funext a
  apply Fin.ext
  match a with
  | ⟨0, _⟩ => show win0_0.index t 0 * 256 + 1 * (y 0).val = 256 * (t.val / 8) + (y 0).val; rw [h0]; omega
  | ⟨1, _⟩ => show win0_0.index t 1 * 2048 + 1 * (y 1).val = 2048 * (t.val % 8) + (y 1).val; rw [h1]; omega

set_option maxHeartbeats 400000 in
/-- Window 1's block at point `t` is tile `(t / 8, t % 8)` of argument 1. -/
theorem iblk1 (c : Dev nD) (t : Fin cfg0.N) :
    (iblk m c 1 t : Vec Ideal S256x2048 .f32) = tile (m ((c.tc : Thread nD τ).loc main_arg1)) (tbi t) (tbj t) := by
  obtain ⟨h0, h1⟩ := (idx_facts t).2.1
  funext y
  unfold iblk
  rw [View.read_apply]
  show m ((c.tc : Thread nD τ).loc main_arg1) _ = _
  unfold tile
  refine congrArg _ ?_
  funext a
  apply Fin.ext
  match a with
  | ⟨0, _⟩ => show win0_1.index t 0 * 256 + 1 * (y 0).val = 256 * (t.val / 8) + (y 0).val; rw [h0]; omega
  | ⟨1, _⟩ => show win0_1.index t 1 * 2048 + 1 * (y 1).val = 2048 * (t.val % 8) + (y 1).val; rw [h1]; omega

set_option maxHeartbeats 400000 in
/-- Window 2's block at point `t` is tile `(t / 8, t % 8)` of argument 2. -/
theorem iblk2 (c : Dev nD) (t : Fin cfg0.N) :
    (iblk m c 2 t : Vec Ideal S256x2048 .f32) = tile (m ((c.tc : Thread nD τ).loc main_arg2)) (tbi t) (tbj t) := by
  obtain ⟨h0, h1⟩ := (idx_facts t).2.2.1
  funext y
  unfold iblk
  rw [View.read_apply]
  show m ((c.tc : Thread nD τ).loc main_arg2) _ = _
  unfold tile
  refine congrArg _ ?_
  funext a
  apply Fin.ext
  match a with
  | ⟨0, _⟩ => show win0_2.index t 0 * 256 + 1 * (y 0).val = 256 * (t.val / 8) + (y 0).val; rw [h0]; omega
  | ⟨1, _⟩ => show win0_2.index t 1 * 2048 + 1 * (y 1).val = 2048 * (t.val % 8) + (y 1).val; rw [h1]; omega

set_option maxHeartbeats 400000 in
/-- Window 3's block at point `t` is tile `(t / 8, t % 8)` of argument 3. -/
theorem iblk3 (c : Dev nD) (t : Fin cfg0.N) :
    (iblk m c 3 t : Vec Ideal S256x2048 .f32) = tile (m ((c.tc : Thread nD τ).loc main_arg3)) (tbi t) (tbj t) := by
  obtain ⟨h0, h1⟩ := (idx_facts t).2.2.2
  funext y
  unfold iblk
  rw [View.read_apply]
  show m ((c.tc : Thread nD τ).loc main_arg3) _ = _
  unfold tile
  refine congrArg _ ?_
  funext a
  apply Fin.ext
  match a with
  | ⟨0, _⟩ => show win0_3.index t 0 * 256 + 1 * (y 0).val = 256 * (t.val / 8) + (y 0).val; rw [h0]; omega
  | ⟨1, _⟩ => show win0_3.index t 1 * 2048 + 1 * (y 1).val = 2048 * (t.val % 8) + (y 1).val; rw [h1]; omega

/-- The sum over a pair of tiles read as blocks is the sum over the tile of the two arrays. -/
theorem blockSum_tile (f : EReal → EReal → EReal) (X Y : SA.Idx → EReal) (bi bj : Fin 8) :
    blockSum f (tile X bi bj) (tile Y bi bj) = tileSum f X Y bi bj :=
  Finset.sum_congr rfl fun a _ => Finset.sum_congr rfl fun b _ => rfl

/-- The cross-entropy total of point `t`'s blocks (windows 0 and 2) is that of tile `(t / 8, t % 8)` of arguments 0 and 2. -/
theorem blockSum_02 (f : EReal → EReal → EReal) (c : Dev nD) (t : Fin cfg0.N) :
    blockSum f (iblk m c 0 t : Vec Ideal S256x2048 .f32) (iblk m c 2 t : Vec Ideal S256x2048 .f32)
      = tileSum f (m ((c.tc : Thread nD τ).loc main_arg0)) (m ((c.tc : Thread nD τ).loc main_arg2)) (tbi t) (tbj t) := by
  rw [iblk0 m c t, iblk2 m c t]; exact blockSum_tile f _ _ _ _

/-- The regression total of point `t`'s blocks (windows 1 and 3) is that of tile `(t / 8, t % 8)` of arguments 1 and 3. -/
theorem blockSum_13 (f : EReal → EReal → EReal) (c : Dev nD) (t : Fin cfg0.N) :
    blockSum f (iblk m c 1 t : Vec Ideal S256x2048 .f32) (iblk m c 3 t : Vec Ideal S256x2048 .f32)
      = tileSum f (m ((c.tc : Thread nD τ).loc main_arg1)) (m ((c.tc : Thread nD τ).loc main_arg3)) (tbi t) (tbj t) := by
  rw [iblk1 m c t, iblk3 m c t]; exact blockSum_tile f _ _ _ _

end Cert.KernelIdeal.KTile

end
-- ==== Proof.LibKeepdims.lean ====
/-
  Two layout operations of a sum taken with the reduced axis kept, read at an index.  A vector of length a viewed as
  a column [a, 1] holds, at (i, 0), the vector's entry i; a column [a, 1] broadcast along a new second axis to [a, b]
  holds, at (i, c), the column's entry (i, 0).  Together they say that a row-wise quantity, kept as a column and
  spread over a block, is read at (i, c) as the quantity of row i.
-/
import Idealize.ShloMosaic.Lib.Pipeline.Value
import Idealize.ShloMosaic.Lib.ValueIdx

namespace Idealize.ShloMosaic.ValueIdx

variable {α : Type}

/-- A vector [a] cast to a column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (i, c), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.KernelPayload.lean ====
/-
  The kernel body's arithmetic read at an index, at the exact values.

  A tile of 256 x 2048 terms is summed along each row (a lane reduction), the 256 row sums are kept as a
  column and summed down it, the one total is kept as a 1 x 1 array and spread over the 8 x 128
  accumulator, and added to the accumulator's old contents.  So each accumulator cell gains the tile's
  total: the double sum over rows `a` and columns `b` of the term at `(a, b)`.  The terms themselves are
  pointwise in the two input tiles, and at an index they are, by unfolding, the specification's element
  functions: the clamped cross entropy for the break loss, the weighted focal smooth-L1 term for the
  regression loss.
-/
import proofs.«127027_j80341658239297_2_alg».proof.Proof.Gen.KernelIdeal.Skeleton
import proofs.«127027_j80341658239297_2_alg».proof.Proof.Spec
import proofs.«127027_j80341658239297_2_alg».proof.Proof.LibKeepdims
import Idealize.ShloMosaic.Lib.ValueLayout
import Idealize.ShloMosaic.Lib.Pipeline.Value
import Idealize.ShloMosaic.PureOps.Ideal.Laws

noncomputable section

namespace Cert.KernelIdeal.Pay

open Cert.Loss Cert.KernelIdeal Cert.KernelIdeal.Gen Idealize.ShloMosaic Idealize.ShloMosaic.ValueIdx

/-- A lane reduction of a 256 x 2048 tile, read at row `a`: the sum of the row's 2048 entries. -/
theorem rowSum_apply (v : FVec Ideal S256x2048 .f32) (hr : S256x2048.Reduces [1] S256) (hφ : FKind.Formats .f32)
    (hacc : (0x00000000#32 : BitVec 32) = 0x00000000#32) (a : Fin 256) :
    multiReduction .add [1] S256 v 0x00000000#32 hr hφ hacc (ix1 a)
      = ∑ b : Fin 2048, v (ix2 a b) := by
  refine (Ideal.multiReduction_add_single v 0x00000000#32 hr hφ hacc (ix1 a)).trans ?_
  refine Finset.sum_congr rfl fun b _ => congrArg v ?_
  funext d
  match d with
  | ⟨0, _⟩ => rfl
  | ⟨1, _⟩ => rfl

/-- The column of 256 row sums summed down to one entry. -/
theorem colSum_apply (w : FVec Ideal S256x1 .f32) (hc : S256x1.Reduces [0] S1) (hφ : FKind.Formats .f32)
    (hacc : (0x00000000#32 : BitVec 32) = 0x00000000#32) (u : Fin 1) :
    multiReduction .add [0] S1 w 0x00000000#32 hc hφ hacc (ix1 u)
      = ∑ a : Fin 256, w (ix2 a (0 : Fin 1)) := by
  refine (Ideal.multiReduction_add_single w 0x00000000#32 hc hφ hacc (ix1 u)).trans ?_
  refine Finset.sum_congr rfl fun a _ => congrArg w ?_
  funext d
  match d with
  | ⟨0, _⟩ => rfl
  | ⟨1, _⟩ => exact Fin.ext (by have := u.isLt; show u.val = 0; omega)

/-- A 1 x 1 array spread over the 8 x 128 accumulator holds its one entry in every cell. -/
theorem spread_apply (z : FVec Ideal S1x1 .f32) (hb : S1x1.Broadcasts S8x128) (i : S8x128.Idx) :
    broadcastTo S8x128 z hb i = z (ix2 (0 : Fin 1) (0 : Fin 1)) := by
  refine broadcastTo_apply z hb i (ix2 (0 : Fin 1) (0 : Fin 1)) fun ax => ?_
  match ax with
  | ⟨0, _⟩ => rfl
  | ⟨1, _⟩ => rfl

/-- The whole reduction of a tile: summed along rows, then down the column, spread over the accumulator —
    every cell holds the double sum of the tile's entries. -/
theorem tileTotal_apply (v : FVec Ideal S256x2048 .f32) (hr : S256x2048.Reduces [1] S256) (hc : S256x1.Reduces [0] S1)
    (hs : S256.ShapeCasts S256x1) (hs' : S1.ShapeCasts S1x1) (hb : S1x1.Broadcasts S8x128) (hφ hφ' : FKind.Formats .f32)
    (hacc hacc' : (0x00000000#32 : BitVec 32) = 0x00000000#32) (i : S8x128.Idx) :
    broadcastTo S8x128
        (shapeCast S1x1
          (multiReduction .add [0] S1
            (shapeCast S256x1 (multiReduction .add [1] S256 v 0x00000000#32 hr hφ hacc) hs)
            0x00000000#32 hc hφ' hacc')
          hs')
        hb i
      = ∑ a : Fin 256, ∑ b : Fin 2048, v (ix2 a b) := by
  refine (spread_apply _ hb i).trans ?_
  refine (shapeCast_a_1a_apply _ hs' (0 : Fin 1) (0 : Fin 1)).trans ?_
  refine (colSum_apply _ hc hφ' hacc' (0 : Fin 1)).trans ?_
  refine Finset.sum_congr rfl fun a _ => ?_
  refine (shapeCast_a_a1_apply _ hs a (0 : Fin 1)).trans ?_
  exact rowSum_apply v hr hφ hacc a

/-- The zero splat stored into the break accumulator at a row of tiles' first tile. -/
theorem pay2_apply (i : S8x128.Idx) : k0_pay2 (F := Ideal) i = Ideal.ofBits .f32 0x00000000#32 := by
  unfold k0_pay2
  rw [shapeCast_self]
  rfl

/-- The zero splat stored into the regression accumulator at a row of tiles' first tile. -/
theorem pay3_apply (i : S8x128.Idx) : k0_pay3 (F := Ideal) i = Ideal.ofBits .f32 0x00000000#32 := by
  unfold k0_pay3
  rw [shapeCast_self]
  rfl

/-- A cast of the accumulator to its own shape changes nothing. -/
theorem pay5_eq (v : FVec Ideal S8x128 .f32) : k0_pay5 v = v := by
  unfold k0_pay5
  exact shapeCast_self v _

/-- The break accumulator after a tile: each cell gains the tile's total of the clamped cross-entropy terms
    of the prediction tile `x0` and the target tile `x2`. -/
theorem pay4_apply (x0 x2 : Vec Ideal S256x2048 .f32) (s : Vec Ideal S8x128 .f32) (i : S8x128.Idx) :
    k0_pay4 x0 x2 s i = s i + blockSum kBce x0 x2 := by
  unfold k0_pay4
  refine (addf_apply _ _ i).trans ?_
  refine congrArg (s i + ·) ?_
  refine (tileTotal_apply _ _ _ _ _ _ _ _ _ _ i).trans ?_
  rfl

/-- The regression accumulator after a tile: each cell gains the tile's total of the weighted focal
    smooth-L1 terms of the prediction tile `x1` and the target tile `x3`. -/
theorem pay1_apply (x1 x3 : Vec Ideal S256x2048 .f32) (s : Vec Ideal S8x128 .f32) (i : S8x128.Idx) :
    k0_pay1 (k0_pay6 x1 x3) s i = s i + blockSum kRegEl x1 x3 := by
  unfold k0_pay1
  rw [shapeCast_self]
  refine (addf_apply _ _ i).trans ?_
  refine congrArg (s i + ·) ?_
  unfold k0_pay6
  refine (tileTotal_apply _ _ _ _ _ _ _ _ _ _ i).trans ?_
  rfl

end Cert.KernelIdeal.Pay

end
-- ==== Proof.KernelInv.lean ====
import proofs.«127027_j80341658239297_2_alg».proof.Proof.Gen.KernelIdeal.Frame
import proofs.«127027_j80341658239297_2_alg».proof.Proof.KernelPieces
import proofs.«127027_j80341658239297_2_alg».proof.Proof.KernelTile
import proofs.«127027_j80341658239297_2_alg».proof.Proof.KernelPayload
import proofs.«127027_j80341658239297_2_alg».proof.Proof.Spec

noncomputable section

open Idealize.ShloMosaic Idealize.ShloMosaic.TcCoe Idealize.SL.Sem
open Idealize.ShloMosaic.Pipeline (Dat)

/-!
  What the two accumulators hold after each grid point, by induction on the point.

  Point `n` works on tile `(n / 8, n % 8)`.  After it, every cell of the cross-entropy accumulator
  holds the total of the cross-entropy term over tiles `0 … n % 8` of row `n / 8` of arguments 0
  and 2, and every cell of the regression accumulator the like total of the regression term over
  arguments 1 and 3: the first tile of a row starts from the zero block (`0 + x = x`), every later
  tile adds its total to what the tile before left.  At the last tile of a row the two output blocks
  receive copies of the accumulators, that is, the totals over the whole row of tiles.
-/

namespace Cert.KernelIdeal.KInv
open Cert.Loss Cert.KernelIdeal Cert.KernelIdeal.Gen Cert.KernelIdeal.KPieces Cert.KernelIdeal.KTile

/-- The total of `f` over tile `(bi, bj)`; zero outside the 8 x 8 grid of tiles. -/
def tsum (f : EReal → EReal → EReal) (X Y : SA.Idx → EReal) (bi bj : ℕ) : EReal :=
  if h : bi < 8 ∧ bj < 8 then tileSum f X Y ⟨bi, h.1⟩ ⟨bj, h.2⟩ else 0

/-- The running total over tiles `0 … k` of row `bi`. -/
def rowSum (f : EReal → EReal → EReal) (X Y : SA.Idx → EReal) (bi k : ℕ) : EReal :=
  ∑ j ∈ Finset.range (k + 1), tsum f X Y bi j

theorem rowSum_zero (f : EReal → EReal → EReal) (X Y : SA.Idx → EReal) (bi : ℕ) :
    rowSum f X Y bi 0 = tsum f X Y bi 0 := Finset.sum_range_one _

theorem rowSum_succ (f : EReal → EReal → EReal) (X Y : SA.Idx → EReal) (bi k : ℕ) :
    rowSum f X Y bi (k + 1) = rowSum f X Y bi k + tsum f X Y bi (k + 1) := Finset.sum_range_succ _ _

/-- The running total through the last tile of a row is the total over the row's eight tiles. -/
theorem rowSum_full (f : EReal → EReal → EReal) (X Y : SA.Idx → EReal) (bi : Fin 8) :
    rowSum f X Y bi.val 7 = ∑ bj : Fin 8, tileSum f X Y bi bj := by
  show ∑ j ∈ Finset.range 8, tsum f X Y bi.val j = _
  rw [← Fin.sum_univ_eq_sum_range (fun j => tsum f X Y bi.val j) 8]
  exact Finset.sum_congr rfl fun j _ => dif_pos ⟨bi.isLt, j.isLt⟩

theorem tsum_at (f : EReal → EReal → EReal) (X Y : SA.Idx → EReal) (t : Fin cfg0.N) :
    tsum f X Y (t.val / 8) (t.val % 8) = tileSum f X Y (tbi t) (tbj t) :=
  dif_pos ⟨(tbi t).isLt, (tbj t).isLt⟩

variable (m : (ℓ : Loc nD τ sig) → Buf (Elt Ideal) ℓ)

/-- The four argument arrays as core `c` holds them at launch. -/
abbrev A0 (c : Dev nD) : SA.Idx → EReal := m ((c.tc : Thread nD τ).loc main_arg0)
abbrev A1 (c : Dev nD) : SA.Idx → EReal := m ((c.tc : Thread nD τ).loc main_arg1)
abbrev A2 (c : Dev nD) : SA.Idx → EReal := m ((c.tc : Thread nD τ).loc main_arg2)
abbrev A3 (c : Dev nD) : SA.Idx → EReal := m ((c.tc : Thread nD τ).loc main_arg3)

/-! ## One accumulation step, over any blocks -/

/-- Adding a tile's cross-entropy total to a constant accumulator. -/
theorem acc0_step (x0 x2 : Vec Ideal S256x2048 .f32) (s : Vec Ideal S8x128 .f32) (v T : EReal)
    (hs : s = fun _ => v) (hT : blockSum kBce x0 x2 = T) :
    (k0_pay5 (k0_pay4 x0 x2 s) : Vec Ideal S8x128 .f32) = fun _ => v + T := by
  funext i
  rw [Pay.pay5_eq]
  refine (Pay.pay4_apply x0 x2 s i).trans ?_
  rw [hs, hT]

/-- Adding it to the zero block. -/
theorem acc0_first (x0 x2 : Vec Ideal S256x2048 .f32) (T : EReal) (hT : blockSum kBce x0 x2 = T) :
    (k0_pay5 (k0_pay4 x0 x2 (k0_pay2 (F := Ideal))) : Vec Ideal S8x128 .f32) = fun _ => T := by
  funext i
  rw [Pay.pay5_eq]
  refine (Pay.pay4_apply x0 x2 (k0_pay2 (F := Ideal)) i).trans ?_
  rw [Pay.pay2_apply, Ideal.ofBits_zero_f32, zero_add, hT]

/-- Adding a tile's regression total to a constant accumulator. -/
theorem acc1_step (x1 x3 : Vec Ideal S256x2048 .f32) (s : Vec Ideal S8x128 .f32) (v T : EReal)
    (hs : s = fun _ => v) (hT : blockSum kRegEl x1 x3 = T) :
    (k0_pay1 (k0_pay6 x1 x3) s : Vec Ideal S8x128 .f32) = fun _ => v + T := by
  funext i
  refine (Pay.pay1_apply x1 x3 s i).trans ?_
  rw [hs, hT]

/-- Adding it to the zero block. -/
theorem acc1_first (x1 x3 : Vec Ideal S256x2048 .f32) (T : EReal) (hT : blockSum kRegEl x1 x3 = T) :
    (k0_pay1 (k0_pay6 x1 x3) (k0_pay3 (F := Ideal)) : Vec Ideal S8x128 .f32) = fun _ => T := by
  funext i
  refine (Pay.pay1_apply x1 x3 (k0_pay3 (F := Ideal)) i).trans ?_
  rw [Pay.pay3_apply, Ideal.ofBits_zero_f32, zero_add, hT]

/-! ## The accumulators at a grid point -/

/-- The first tile of a row leaves its own total. -/
theorem first0 (c : Dev nD) (t : Fin cfg0.N) (h0 : t.val % 8 = 0) :
    (k0_pay5 (k0_pay4 (iblk m c 0 t) (iblk m c 2 t) (k0_pay2 (F := Ideal))) : Vec Ideal S8x128 .f32)
      = fun _ => rowSum kBce (A0 m c) (A2 m c) (t.val / 8) (t.val % 8) := by
  refine acc0_first (iblk m c 0 t) (iblk m c 2 t) _ ?_
  rw [blockSum_02 m kBce c t, ← tsum_at, h0]
  exact (rowSum_zero _ _ _ _).symm

theorem first1 (c : Dev nD) (t : Fin cfg0.N) (h0 : t.val % 8 = 0) :
    (k0_pay1 (k0_pay6 (iblk m c 1 t) (iblk m c 3 t)) (k0_pay3 (F := Ideal)) : Vec Ideal S8x128 .f32)
      = fun _ => rowSum kRegEl (A1 m c) (A3 m c) (t.val / 8) (t.val % 8) := by
  refine acc1_first (iblk m c 1 t) (iblk m c 3 t) _ ?_
  rw [blockSum_13 m kRegEl c t, ← tsum_at, h0]
  exact (rowSum_zero _ _ _ _).symm

/-- A later tile of a row adds its total to the running total through the tile before. -/
theorem next0 (c : Dev nD) (t : Fin cfg0.N) (h0 : ¬t.val % 8 = 0) (s : Vec Ideal S8x128 .f32)
    (hs : s = fun _ => rowSum kBce (A0 m c) (A2 m c) (t.val / 8) ((t.val - 1) % 8)) :
    (k0_pay5 (k0_pay4 (iblk m c 0 t) (iblk m c 2 t) s) : Vec Ideal S8x128 .f32)
      = fun _ => rowSum kBce (A0 m c) (A2 m c) (t.val / 8) (t.val % 8) := by
  have e2 : t.val % 8 = (t.val - 1) % 8 + 1 := by omega
  refine (acc0_step (iblk m c 0 t) (iblk m c 2 t) s _ _ hs (blockSum_02 m kBce c t)).trans ?_
  rw [← tsum_at, e2]
  exact funext fun _ => (rowSum_succ _ _ _ _ _).symm

theorem next1 (c : Dev nD) (t : Fin cfg0.N) (h0 : ¬t.val % 8 = 0) (s : Vec Ideal S8x128 .f32)
    (hs : s = fun _ => rowSum kRegEl (A1 m c) (A3 m c) (t.val / 8) ((t.val - 1) % 8)) :
    (k0_pay1 (k0_pay6 (iblk m c 1 t) (iblk m c 3 t)) s : Vec Ideal S8x128 .f32)
      = fun _ => rowSum kRegEl (A1 m c) (A3 m c) (t.val / 8) (t.val % 8) := by
  have e2 : t.val % 8 = (t.val - 1) % 8 + 1 := by omega
  refine (acc1_step (iblk m c 1 t) (iblk m c 3 t) s _ _ hs (blockSum_13 m kRegEl c t)).trans ?_
  rw [← tsum_at, e2]
  exact funext fun _ => (rowSum_succ _ _ _ _ _).symm

/-! ## The invariant -/

/-- After point `n`: both accumulators hold their running totals through tile `n % 8` of row `n / 8`;
    at the last tile of a row the output blocks hold the totals over the row. -/
def Inv (c : Dev nD) (n : ℕ) (h : n < cfg0.N) : Prop :=
  (outsAt0 m c n h).2.2.1 = (fun _ => rowSum kBce (A0 m c) (A2 m c) (n / 8) (n % 8) : Vec Ideal S8x128 .f32)
  ∧ (outsAt0 m c n h).2.2.2 = (fun _ => rowSum kRegEl (A1 m c) (A3 m c) (n / 8) (n % 8) : Vec Ideal S8x128 .f32)
  ∧ (n % 8 = 7 →
      (outsAt0 m c n h).1 = (fun _ => rowSum kBce (A0 m c) (A2 m c) (n / 8) 7 : Vec Ideal S8x128 .f32)
      ∧ (outsAt0 m c n h).2.1 = (fun _ => rowSum kRegEl (A1 m c) (A3 m c) (n / 8) 7 : Vec Ideal S8x128 .f32))

set_option maxHeartbeats 400000 in
/-- At the first tile of a row. -/
theorem inv_A (c : Dev nD) (t : Fin cfg0.N) (h0 : t.val % 8 = 0) : Inv m c t.val t.isLt := by
  have h1 : ¬t.val % 8 = 7 := by omega
  unfold Inv
  rw [outsAt0_A m c t h0 h1]
  dsimp only
  refine ⟨?_, ?_, fun h7 => absurd h7 h1⟩
  · exact (soutA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)).trans (first0 m c t h0)
  · exact (soutA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)).trans (first1 m c t h0)

set_option maxHeartbeats 400000 in
/-- At a later tile of a row, from the invariant at the tile before. -/
theorem inv_BC (c : Dev nD) (t : Fin cfg0.N) (h0 : ¬t.val % 8 = 0)
    (prev : Inv m c (t.val - 1) (Nat.lt_of_le_of_lt (Nat.sub_le _ _) t.isLt)) : Inv m c t.val t.isLt := by
  have e1 : (t.val - 1) / 8 = t.val / 8 := by omega
  obtain ⟨p0, p1, -⟩ := prev
  rw [e1] at p0 p1
  by_cases h1 : t.val % 8 = 7
  · unfold Inv
    rw [outsAt0_C m c t h0 h1]
    dsimp only
    refine ⟨?_, ?_, fun _ => ⟨?_, ?_⟩⟩
    · exact (soutC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans (next0 m c t h0 _ p0)
    · exact (soutC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans (next1 m c t h0 _ p1)
    · refine ((outC4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans (next0 m c t h0 _ p0)).trans ?_
      rw [h1]
    · refine ((outC5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans (next1 m c t h0 _ p1)).trans ?_
      rw [h1]
  · unfold Inv
    rw [outsAt0_B m c t h0 h1]
    dsimp only
    refine ⟨?_, ?_, fun h7 => absurd h7 h1⟩
    · exact (soutB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans (next0 m c t h0 _ p0)
    · exact (soutB1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans (next1 m c t h0 _ p1)

/-- The invariant holds after every point. -/
theorem inv (c : Dev nD) : ∀ (n : ℕ) (h : n < cfg0.N), Inv m c n h := by
  intro n
  induction n with
  | zero => intro h; exact inv_A m c ⟨0, h⟩ rfl
  | succ k ih =>
    intro h
    by_cases h0 : (k + 1) % 8 = 0
    · exact inv_A m c ⟨k + 1, h⟩ h0
    · exact inv_BC m c ⟨k + 1, h⟩ h0 (ih (Nat.lt_of_succ_lt h))

end Cert.KernelIdeal.KInv

end
-- ==== Proof.KernelFinal.lean ====
import proofs.«127027_j80341658239297_2_alg».proof.Proof.Gen.KernelIdeal.Frame
import proofs.«127027_j80341658239297_2_alg».proof.Proof.KernelInv
import Idealize.ShloMosaic.Lib.Pipeline.Value

noncomputable section

open Idealize.ShloMosaic Idealize.ShloMosaic.TcCoe Idealize.SL.Sem
open Idealize.ShloMosaic.Pipeline (Dat)

/-!
  The two 64 x 128 output arrays after the run.

  An output block is written back only at the last tile of a row of tiles, point `8 bi + 7`, and
  lands at block `(bi, 0)` of its array: rows `8 bi … 8 bi + 7`.  What is written is the
  accumulator's copy, constant over the block: the total over the eight tiles of row `bi`.  The
  eight write-backs cover the array (row `r` lies in block `r / 8`), so after the run cell `i` of
  output 0 holds the cross-entropy total over row of tiles `i₀ / 8` of arguments 0 and 2, and cell
  `i` of output 1 the regression total over the same row of tiles of arguments 1 and 3.
-/

namespace Cert.KernelIdeal.KFinal
open Cert.Loss Cert.KernelIdeal Cert.KernelIdeal.Gen Cert.KernelIdeal.KTile Cert.KernelIdeal.KInv

variable (m : (ℓ : Loc nD τ sig) → Buf (Elt Ideal) ℓ)

/-- Both output windows take block `(t / 8, 0)` at point `t`. -/
theorem oidx_facts : ∀ t : Fin cfg0.N,
    (win0_4.index t (0 : Fin 2) = t.val / 8 ∧ win0_4.index t (1 : Fin 2) = 0)
    ∧ (win0_5.index t (0 : Fin 2) = t.val / 8 ∧ win0_5.index t (1 : Fin 2) = 0) :=
  (by decide +kernel : ∀ t : Fin grid0.N, _)

/-- A cell in block `bi` of an output holds the running total through the last tile of row `bi`. -/
theorem kOut_at (f : EReal → EReal → EReal) (X Y : SA.Idx → EReal) (i : SO.Idx) (bi : Fin 8)
    (h : (i 0).val / 8 = bi.val) : kOut f X Y i = rowSum f X Y bi.val 7 := by
  rw [rowSum_full]
  unfold kOut
  rw [show outBlk i = bi from Fin.ext h]

/-- The two output arrays' contents after the run, as functions of the argument arrays. -/
abbrev G4 (c : Dev nD) : Buf (Elt Ideal) ((c.tc : Thread nD τ).loc main_v0_0) := kOut kBce (A0 m c) (A2 m c)
abbrev G5 (c : Dev nD) : Buf (Elt Ideal) ((c.tc : Thread nD τ).loc main_v0_1) := kOut kRegEl (A1 m c) (A3 m c)

set_option maxHeartbeats 400000 in
/-- What the write-back at the last tile of a row writes to output 0: its block of the row totals. -/
theorem flushed_eq4 (c : Dev nD) (t : Fin cfg0.N) (hf : (cfg0.win 4).flush t = true) :
    (dats m 0 c).flushed 4 t = ((cfg0.win 4).blk t).view.read (Elt Ideal) (G4 m c) := by
  have h7 : t.val % 8 = 7 := (flush0_4 t).mp hf
  have i0 : win0_4.index t (0 : Fin 2) = t.val / 8 := (oidx_facts t).1.1
  show (cfg0.win 4).cut (grid0.coords t) ((dats m 0 c).after 4 t) = _
  rw [after0_4, ((inv m c t.val t.isLt).2.2 h7).1]
  funext y
  rw [View.read_apply]
  have hy : (y 0).val < 8 := (y 0).isLt
  refine (kOut_at kBce (A0 m c) (A2 m c) _ (tbi t) ?_).symm
  show (win0_4.index t 0 * 8 + 1 * (y 0).val) / 8 = t.val / 8
  rw [i0]; omega

set_option maxHeartbeats 400000 in
/-- Output 0 after the run: each cell holds the total over its row of tiles. -/
theorem final4 (c : Dev nD) : (dats m 0 c).arrAt 4 cfg0.N = G4 m c :=
  (dats m 0 c).arrAt_eq_of_cover 4 (G4 m c) (flushed_eq4 m c) fun i => by
    have hi0 : (i 0 : Nat) < 64 := (i 0).isLt
    have hi1 : (i 1 : Nat) < 128 := (i 1).isLt
    obtain ⟨t, ht⟩ : ∃ t : Fin cfg0.N, t.val = 8 * ((i 0 : Nat) / 8) + 7 :=
      ⟨⟨8 * ((i 0 : Nat) / 8) + 7, by rw [show cfg0.N = 64 from N_0]; omega⟩, rfl⟩
    have i0 : win0_4.index t (0 : Fin 2) = t.val / 8 := (oidx_facts t).1.1
    have i1 : win0_4.index t (1 : Fin 2) = 0 := (oidx_facts t).1.2
    refine ⟨t, (flush0_4 t).mpr (by omega), ?_⟩
    show i ∈ ((View.whole main_v0_0).slice (win0_4.rect t)).set
    rw [View.set_slice_whole, Rect.mem_set_unit]
    intro a
    match a with
    | ⟨0, _⟩ =>
      show win0_4.index t 0 * 8 ≤ (i 0 : Nat) ∧ (i 0 : Nat) < win0_4.index t 0 * 8 + 8
      rw [i0]; omega
    | ⟨1, _⟩ =>
      show win0_4.index t 1 * 128 ≤ (i 1 : Nat) ∧ (i 1 : Nat) < win0_4.index t 1 * 128 + 128
      rw [i1]; omega

set_option maxHeartbeats 400000 in
/-- What the write-back at the last tile of a row writes to output 1: its block of the row totals. -/
theorem flushed_eq5 (c : Dev nD) (t : Fin cfg0.N) (hf : (cfg0.win 5).flush t = true) :
    (dats m 0 c).flushed 5 t = ((cfg0.win 5).blk t).view.read (Elt Ideal) (G5 m c) := by
  have h7 : t.val % 8 = 7 := (flush0_5 t).mp hf
  have i0 : win0_5.index t (0 : Fin 2) = t.val / 8 := (oidx_facts t).2.1
  show (cfg0.win 5).cut (grid0.coords t) ((dats m 0 c).after 5 t) = _
  rw [after0_5, ((inv m c t.val t.isLt).2.2 h7).2]
  funext y
  rw [View.read_apply]
  have hy : (y 0).val < 8 := (y 0).isLt
  refine (kOut_at kRegEl (A1 m c) (A3 m c) _ (tbi t) ?_).symm
  show (win0_5.index t 0 * 8 + 1 * (y 0).val) / 8 = t.val / 8
  rw [i0]; omega

set_option maxHeartbeats 400000 in
/-- Output 1 after the run: each cell holds the total over its row of tiles. -/
theorem final5 (c : Dev nD) : (dats m 0 c).arrAt 5 cfg0.N = G5 m c :=
  (dats m 0 c).arrAt_eq_of_cover 5 (G5 m c) (flushed_eq5 m c) fun i => by
    have hi0 : (i 0 : Nat) < 64 := (i 0).isLt
    have hi1 : (i 1 : Nat) < 128 := (i 1).isLt
    obtain ⟨t, ht⟩ : ∃ t : Fin cfg0.N, t.val = 8 * ((i 0 : Nat) / 8) + 7 :=
      ⟨⟨8 * ((i 0 : Nat) / 8) + 7, by rw [show cfg0.N = 64 from N_0]; omega⟩, rfl⟩
    have i0 : win0_5.index t (0 : Fin 2) = t.val / 8 := (oidx_facts t).2.1
    have i1 : win0_5.index t (1 : Fin 2) = 0 := (oidx_facts t).2.2
    refine ⟨t, (flush0_5 t).mpr (by omega), ?_⟩
    show i ∈ ((View.whole main_v0_1).slice (win0_5.rect t)).set
    rw [View.set_slice_whole, Rect.mem_set_unit]
    intro a
    match a with
    | ⟨0, _⟩ =>
      show win0_5.index t 0 * 8 ≤ (i 0 : Nat) ∧ (i 0 : Nat) < win0_5.index t 0 * 8 + 8
      rw [i0]; omega
    | ⟨1, _⟩ =>
      show win0_5.index t 1 * 128 ≤ (i 1 : Nat) ∧ (i 1 : Nat) < win0_5.index t 1 * 128 + 128
      rw [i1]; omega

end Cert.KernelIdeal.KFinal

end
-- ==== Proof.KernelValue.lean ====
import proofs.«127027_j80341658239297_2_alg».proof.Proof.Gen.KernelIdeal.Frame
import proofs.«127027_j80341658239297_2_alg».proof.Proof.KernelFinal
import proofs.«127027_j80341658239297_2_alg».proof.Proof.Spec
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

/-!
  The kernel program's three scalar results as functions of the four argument arrays.

  After the tiled pass the program totals each 64 x 128 output array from zero, divides the total by
  1024 (every row-of-tiles total sits in the 8 x 128 = 1024 cells of its block) and by the number of
  entries 2^25: the cross-entropy mean and the regression mean.  The third result is their sum, each
  weighted by 1.  The four argument arrays are inputs of the pass and are left as they were.
-/

namespace Cert.KernelIdeal.KValue
open Cert.Loss Cert.KernelIdeal Cert.KernelIdeal.Gen Cert.KernelIdeal.KInv Cert.KernelIdeal.KFinal

/-- The total of an output array from zero is zero plus the sum of all its cells. -/
theorem total_apply (O : SO.Idx → EReal) (j : S_.Idx) :
    Host.reduceAdd (F := Ideal) (O : FVec Ideal S64x128 .f32) (constant (F := Ideal) S_ .f32 0x00000000#32) reducesTo_S64x128_S_d0_1 h_S_ j
      = Ideal.ofBits .f32 0x00000000#32 + ∑ i : SO.Idx, O i :=
  Ideal.hostReduceAdd_total reducesTo_S64x128_S_d0_1 (fun b => b.elim0) O _ j

/-- The total divided by 1024 and by 2^25 is the mean the specification names. -/
theorem mean_apply (O : SO.Idx → EReal) (j : S_.Idx) :
    Host.divf (F := Ideal) (Host.divf (F := Ideal) (Host.reduceAdd (F := Ideal) (O : FVec Ideal S64x128 .f32) (constant (F := Ideal) S_ .f32 0x00000000#32) reducesTo_S64x128_S_d0_1 h_S_) (constant (F := Ideal) S_ .f32 0x44800000#32)) (constant (F := Ideal) S_ .f32 0x4C000000#32) j = kMean O := by
  show Ideal.div (Ideal.div (Host.reduceAdd (F := Ideal) (O : FVec Ideal S64x128 .f32) (constant (F := Ideal) S_ .f32 0x00000000#32) reducesTo_S64x128_S_d0_1 h_S_ j)
    (Ideal.ofBits .f32 0x44800000#32)) (Ideal.ofBits .f32 0x4C000000#32) = _
  rw [total_apply]
  rfl

variable (m : (ℓ : Loc nD τ sig) → Buf (Elt Ideal) ℓ) (ρ : Dev nD → PrngReg)

/-- What the lines after the tiled pass find in the first output array, -/
theorem arr4 (c : Dev nD) :
    Pipeline.withArrays (cfgs 0).spec c (V0 m c) (fun w => (dats m 0 c).arrAt w (cfgs 0).N) (Proc.devRef .tc main_v0_0) = G4 m c :=
  (Pipeline.withArrays_arr (cfgs 0).spec launch0.win.arr_inj c _ _ 4).trans (final4 m c)

/-- and in the second. -/
theorem arr5 (c : Dev nD) :
    Pipeline.withArrays (cfgs 0).spec c (V0 m c) (fun w => (dats m 0 c).arrAt w (cfgs 0).N) (Proc.devRef .tc main_v0_1) = G5 m c :=
  (Pipeline.withArrays_arr (cfgs 0).spec launch0.win.arr_inj c _ _ 5).trans (final5 m c)

set_option maxHeartbeats 400000 in
/-- The cross-entropy mean. -/
theorem tail_v3 (c : Dev nD) :
    Pipeline.afterTail₀ cfgs (dats m) 0 (V0 m) [hostOps1] c main_v3 = fun _ => kBreak (A0 m c) (A2 m c) := by
  unfold Pipeline.afterTail₀
  show StableHlo.after hostOps1 _ (Proc.devRef .tc main_v3) = _
  after_results
  rw [arr4 m c]
  funext j
  exact mean_apply (G4 m c) j

set_option maxHeartbeats 400000 in
/-- The regression mean. -/
theorem tail_v6 (c : Dev nD) :
    Pipeline.afterTail₀ cfgs (dats m) 0 (V0 m) [hostOps1] c main_v6 = fun _ => kReg (A1 m c) (A3 m c) := by
  unfold Pipeline.afterTail₀
  show StableHlo.after hostOps1 _ (Proc.devRef .tc main_v6) = _
  after_results
  rw [arr5 m c]
  funext j
  exact mean_apply (G5 m c) j

set_option maxHeartbeats 400000 in
/-- Their sum, each weighted by 1. -/
theorem tail_v9 (c : Dev nD) :
    Pipeline.afterTail₀ cfgs (dats m) 0 (V0 m) [hostOps1] c main_v9
      = fun _ => kTotal (A0 m c) (A1 m c) (A2 m c) (A3 m c) := by
  unfold Pipeline.afterTail₀
  show StableHlo.after hostOps1 _ (Proc.devRef .tc main_v9) = _
  after_results
  rw [arr4 m c, arr5 m c]
  funext j
  have e4 := mean_apply (G4 m c) j
  have e5 := mean_apply (G5 m c) j
  show Ideal.ofBits .f32 0x3F800000#32 * _ + Ideal.ofBits .f32 0x3F800000#32 * _ = _
  rw [e4, e5]
  rfl

set_option backward.isDefEq.respectTransparency.types false in
/-- Every weakly fair execution of the kernel program terminates without a fault, with its three results at the
    specification's functions of the argument arrays as launched and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9) = (fun _ => Cert.Loss.kTotal (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v3) = (fun _ => Cert.Loss.kBreak (m ((c.tc : Thread nD τ).loc main_arg0)) (m ((c.tc : Thread nD τ).loc main_arg2)))
      ∧ r.2.mem ((c.tc : Thread nD τ).loc main_v6) = (fun _ => Cert.Loss.kReg (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v9 (Pipeline.mem_restRefs_of main_v9 rfl (by decide))).trans (tail_v9 m c),
     ((h c).2 main_v3 (Pipeline.mem_restRefs_of main_v3 rfl (by decide))).trans (tail_v3 m c),
     ((h c).2 main_v6 (Pipeline.mem_restRefs_of main_v6 rfl (by decide))).trans (tail_v6 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c)))⟩)
    (run_main m ρ)

end Cert.KernelIdeal.KValue

end
-- ==== Proof.RefRunOps.lean ====
/-
  The reference program's @main as a list of its 102 host operations, the functions it calls listed in
  place of their calls, cut into four consecutive stretches:

    A (37 operations)  the break loss: both arrays clipped to [0, 1], the two clamped logarithms, the
                       cross-entropy terms, their sum over all entries, the division by the entry count;
    B (21 operations)  the two regression arrays flattened, the target rounded and clipped to a class,
                       the class as an integer index (a negative index wrapped by 4), the class weight
                       looked up in the four-entry table;
    C (22 operations)  the absolute error, its clipped double squared, the comparison with one half,
                       the first product of the quadratic branch;
    D (22 operations)  the two branches and the choice between them, the weighted term, its sum and
                       mean, and the total of the two losses.

  A program that is only such operations runs to its end from any memory, and each buffer then holds
  the fold of the operations' results over what the memory held at launch.
-/
import proofs.«127027_j80341658239297_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 37: the break loss. -/
abbrev opsA : List (HloOp τ sig (Elt F)) :=
  [ nullary main_cst (fun i => FloatOps.ofBits .f32 (lit0 (S4.rowMajor i))),
    nullary main_cst_0 (constant S_ .f32 0x00000000#32),
    nullary main_cst_1 (constant S_ .f32 0x3F800000#32),
    TRef.unary (TRef.of (T := ⟨S_, .f32⟩) main_cst_0) main_call0.v0 id,
    TRef.unary main_call0.v0 main_call0.v1 (broadcastInDim S2048x16384 ![] bcast_S_S2048x16384),
    TRef.binary main_call0.v1 (TRef.of (T := ⟨S2048x16384, .f32⟩) main_arg2) main_call0.v2 maximumf,
    TRef.unary (TRef.of (T := ⟨S_, .f32⟩) main_cst_1) main_call0.v3 id,
    TRef.unary main_call0.v3 main_call0.v4 (broadcastInDim S2048x16384 ![] bcast_S_S2048x16384),
    TRef.binary main_call0.v4 main_call0.v2 main_call0.v5 minimumf,
    nullary main_cst_2 (constant S_ .f32 0x00000000#32),
    nullary main_cst_3 (constant S_ .f32 0x3F800000#32),
    TRef.unary (TRef.of (T := ⟨S_, .f32⟩) main_cst_2) main_call1.v0 id,
    TRef.unary main_call1.v0 main_call1.v1 (broadcastInDim S2048x16384 ![] bcast_S_S2048x16384),
    TRef.binary main_call1.v1 (TRef.of (T := ⟨S2048x16384, .f32⟩) main_arg0) main_call1.v2 maximumf,
    TRef.unary (TRef.of (T := ⟨S_, .f32⟩) main_cst_3) main_call1.v3 id,
    TRef.unary main_call1.v3 main_call1.v4 (broadcastInDim S2048x16384 ![] bcast_S_S2048x16384),
    TRef.binary main_call1.v4 main_call1.v2 main_call1.v5 minimumf,
    unary main_v1 main_v2 (Host.log : (⟨S2048x16384, .f32⟩ : BufTy).Contents (Elt F) → (⟨S2048x16384, .f32⟩ : BufTy).Contents (Elt F)),
    nullary main_cst_4 (constant S_ .f32 0xC2C80000#32),
    unary main_cst_4 main_v3 (broadcastInDim S2048x16384 ![] bcast_S_S2048x16384 : (⟨S_, .f32⟩ : BufTy).Contents (Elt F) → (⟨S2048x16384, .f32⟩ : BufTy).Contents (Elt F)),
    binary main_v2 main_v3 main_v4 (maximumf : (⟨S2048x16384, .f32⟩ : BufTy).Contents (Elt F) → (⟨S2048x16384, .f32⟩ : BufTy).Contents (Elt F) → (⟨S2048x16384, .f32⟩ : BufTy).Contents (Elt F)),
    unary main_v1 main_v5 (Host.negf : (⟨S2048x16384, .f32⟩ : BufTy).Contents (Elt F) → (⟨S2048x16384, .f32⟩ : BufTy).Contents (Elt F)),
    unary main_v5 main_v6 (Host.log1p : (⟨S2048x16384, .f32⟩ : BufTy).Contents (Elt F) → (⟨S2048x16384, .f32⟩ : BufTy).Contents (Elt F)),
    nullary main_cst_5 (constant S_ .f32 0xC2C80000#32),
    unary main_cst_5 main_v7 (broadcastInDim S2048x16384 ![] bcast_S_S2048x16384 : (⟨S_, .f32⟩ : BufTy).Contents (Elt F) → (⟨S2048x16384, .f32⟩ : BufTy).Contents (Elt F)),
    binary main_v6 main_v7 main_v8 (maximumf : (⟨S2048x16384, .f32⟩ : BufTy).Contents (Elt F) → (⟨S2048x16384, .f32⟩ : BufTy).Contents (Elt F) → (⟨S2048x16384, .f32⟩ : BufTy).Contents (Elt F)),
    binary main_v0 main_v4 main_v9 (mulf : (⟨S2048x16384, .f32⟩ : BufTy).Contents (Elt F) → (⟨S2048x16384, .f32⟩ : BufTy).Contents (Elt F) → (⟨S2048x16384, .f32⟩ : BufTy).Contents (Elt F)),
    nullary main_cst_6 (constant S_ .f32 0x3F800000#32),
    unary main_cst_6 main_v10 (broadcastInDim S2048x16384 ![] bcast_S_S2048x16384 : (⟨S_, .f32⟩ : BufTy).Contents (Elt F) → (⟨S2048x16384, .f32⟩ : BufTy).Contents (Elt F)),
    binary main_v10 main_v0 main_v11 (subf : (⟨S2048x16384, .f32⟩ : BufTy).Contents (Elt F) → (⟨S2048x16384, .f32⟩ : BufTy).Contents (Elt F) → (⟨S2048x16384, .f32⟩ : BufTy).Contents (Elt F)),
    binary main_v11 main_v8 main_v12 (mulf : (⟨S2048x16384, .f32⟩ : BufTy).Contents (Elt F) → (⟨S2048x16384, .f32⟩ : BufTy).Contents (Elt F) → (⟨S2048x16384, .f32⟩ : BufTy).Contents (Elt F)),
    binary main_v9 main_v12 main_v13 (addf : (⟨S2048x16384, .f32⟩ : BufTy).Contents (Elt F) → (⟨S2048x16384, .f32⟩ : BufTy).Contents (Elt F) → (⟨S2048x16384, .f32⟩ : BufTy).Contents (Elt F)),
    unary main_v13 main_v14 (Host.negf : (⟨S2048x16384, .f32⟩ : BufTy).Contents (Elt F) → (⟨S2048x16384, .f32⟩ : BufTy).Contents (Elt F)),
    nullary main_cst_7 (constant S_ .f32 0x00000000#32),
    binary main_v14 main_cst_7 main_v15 ((fun x v => Host.reduceAdd x v reducesTo_S2048x16384_S_d0_1 h_S_) : (⟨S2048x16384, .f32⟩ : BufTy).Contents (Elt F) → (⟨S_, .f32⟩ : BufTy).Contents (Elt F) → (⟨S_, .f32⟩ : BufTy).Contents (Elt F)),
    nullary main_cst_8 (constant S_ .f32 0x4C000000#32),
    binary main_v15 main_cst_8 main_v16 (Host.divf : (⟨S_, .f32⟩ : BufTy).Contents (Elt F) → (⟨S_, .f32⟩ : BufTy).Contents (Elt F) → (⟨S_, .f32⟩ : BufTy).Contents (Elt F)) ]

/-- Operations 38 … 58: the class weight of every entry. -/
abbrev opsB : List (HloOp τ sig (Elt F)) :=
  [ reshape main_arg1 main_v17 rfl shapeCasts_S2048x16384_S33554432,
    reshape main_arg3 main_v18 rfl shapeCasts_S2048x16384_S33554432,
    TRef.unary (TRef.of (T := ⟨S33554432, .f32⟩) main_v18) main_call2.v0 Host.roundeven,
    nullary main_cst_9 (constant S_ .f32 0x00000000#32),
    nullary main_cst_10 (constant S_ .f32 0x40400000#32),
    TRef.unary (TRef.of (T := ⟨S_, .f32⟩) main_cst_9) main_call3.v0 id,
    TRef.unary main_call3.v0 main_call3.v1 (broadcastInDim S33554432 ![] bcast_S_S33554432),
    TRef.binary main_call3.v1 (TRef.of (T := ⟨S33554432, .f32⟩) main_v19) main_call3.v2 maximumf,
    TRef.unary (TRef.of (T := ⟨S_, .f32⟩) main_cst_10) main_call3.v3 id,
    TRef.unary main_call3.v3 main_call3.v4 (broadcastInDim S33554432 ![] bcast_S_S33554432),
    TRef.binary main_call3.v4 main_call3.v2 main_call3.v5 minimumf,
    unary main_v20 main_v21 (fptosi 32 : (⟨S33554432, .f32⟩ : BufTy).Contents (Elt F) → (⟨S33554432, .i32⟩ : BufTy).Contents (Elt F)),
    nullary main_c (constantI S_ 32 0#32),
    unary main_c main_v22 (broadcastInDim S33554432 ![] bcast_S_S33554432 : (⟨S_, .i32⟩ : BufTy).Contents (Elt F) → (⟨S33554432, .i32⟩ : BufTy).Contents (Elt F)),
    binary main_v21 main_v22 main_v23 (cmpi .slt : (⟨S33554432, .i32⟩ : BufTy).Contents (Elt F) → (⟨S33554432, .i32⟩ : BufTy).Contents (Elt F) → (⟨S33554432, .i1⟩ : BufTy).Contents (Elt F)),
    nullary main_c_11 (constantI S_ 32 4#32),
    unary main_c_11 main_v24 (broadcastInDim S33554432 ![] bcast_S_S33554432 : (⟨S_, .i32⟩ : BufTy).Contents (Elt F) → (⟨S33554432, .i32⟩ : BufTy).Contents (Elt F)),
    binary main_v21 main_v24 main_v25 (addi : (⟨S33554432, .i32⟩ : BufTy).Contents (Elt F) → (⟨S33554432, .i32⟩ : BufTy).Contents (Elt F) → (⟨S33554432, .i32⟩ : BufTy).Contents (Elt F)),
    ternary main_v23 main_v25 main_v21 main_v26 (select : (⟨S33554432, .i1⟩ : BufTy).Contents (Elt F) → (⟨S33554432, .i32⟩ : BufTy).Contents (Elt F) → (⟨S33554432, .i32⟩ : BufTy).Contents (Elt F) → (⟨S33554432, .i32⟩ : BufTy).Contents (Elt F)),
    unary main_v26 main_v27 (broadcastInDim S33554432x1 ![0] bcast_S33554432_S33554432x1_0 : (⟨S33554432, .i32⟩ : BufTy).Contents (Elt F) → (⟨S33554432x1, .i32⟩ : BufTy).Contents (Elt F)),
    binary main_cst main_v27 main_v28 ((fun x i => Host.gather gather_S4_S33554432x1_S33554432_n_0_n_n_0_1_1 x i) : (⟨S4, .f32⟩ : BufTy).Contents (Elt F) → (⟨S33554432x1, .i32⟩ : BufTy).Contents (Elt F) → (⟨S33554432, .f32⟩ : BufTy).Contents (Elt F)) ]

/-- Operations 59 … 80: the absolute error and what is computed from it before the two branches. -/
abbrev opsC : List (HloOp τ sig (Elt F)) :=
  [ binary main_v17 main_v18 main_v29 (subf : (⟨S33554432, .f32⟩ : BufTy).Contents (Elt F) → (⟨S33554432, .f32⟩ : BufTy).Contents (Elt F) → (⟨S33554432, .f32⟩ : BufTy).Contents (Elt F)),
    unary main_v29 main_v30 (Host.absf : (⟨S33554432, .f32⟩ : BufTy).Contents (Elt F) → (⟨S33554432, .f32⟩ : BufTy).Contents (Elt F)),
    nullary main_cst_12 (constant S_ .f32 0x3F000000#32),
    unary main_cst_12 main_v31 (broadcastInDim S33554432 ![] bcast_S_S33554432 : (⟨S_, .f32⟩ : BufTy).Contents (Elt F) → (⟨S33554432, .f32⟩ : BufTy).Contents (Elt F)),
    binary main_v30 main_v31 main_v32 (Host.divf : (⟨S33554432, .f32⟩ : BufTy).Contents (Elt F) → (⟨S33554432, .f32⟩ : BufTy).Contents (Elt F) → (⟨S33554432, .f32⟩ : BufTy).Contents (Elt F)),
    nullary main_cst_13 (constant S_ .f32 0x00000000#32),
    nullary main_cst_14 (constant S_ .f32 0x3F800000#32),
    TRef.unary (TRef.of (T := ⟨S_, .f32⟩) main_cst_13) main_call4.v0 id,
    TRef.unary main_call4.v0 main_call4.v1 (broadcastInDim S33554432 ![] bcast_S_S33554432),
    TRef.binary main_call4.v1 (TRef.of (T := ⟨S33554432, .f32⟩) main_v32) main_call4.v2 maximumf,
    TRef.unary (TRef.of (T := ⟨S_, .f32⟩) main_cst_14) main_call4.v3 id,
    TRef.unary main_call4.v3 main_call4.v4 (broadcastInDim S33554432 ![] bcast_S_S33554432),
    TRef.binary main_call4.v4 main_call4.v2 main_call4.v5 minimumf,
    nullary main_cst_15 (constant S_ .f32 0x40000000#32),
    unary main_cst_15 main_v34 (broadcastInDim S33554432 ![] bcast_S_S33554432 : (⟨S_, .f32⟩ : BufTy).Contents (Elt F) → (⟨S33554432, .f32⟩ : BufTy).Contents (Elt F)),
    binary main_v33 main_v34 main_v35 (Host.powf : (⟨S33554432, .f32⟩ : BufTy).Contents (Elt F) → (⟨S33554432, .f32⟩ : BufTy).Contents (Elt F) → (⟨S33554432, .f32⟩ : BufTy).Contents (Elt F)),
    nullary main_cst_16 (constant S_ .f32 0x3F000000#32),
    unary main_cst_16 main_v36 (broadcastInDim S33554432 ![] bcast_S_S33554432 : (⟨S_, .f32⟩ : BufTy).Contents (Elt F) → (⟨S33554432, .f32⟩ : BufTy).Contents (Elt F)),
    binary main_v30 main_v36 main_v37 (cmpf .olt : (⟨S33554432, .f32⟩ : BufTy).Contents (Elt F) → (⟨S33554432, .f32⟩ : BufTy).Contents (Elt F) → (⟨S33554432, .i1⟩ : BufTy).Contents (Elt F)),
    nullary main_cst_17 (constant S_ .f32 0x3F000000#32),
    unary main_cst_17 main_v38 (broadcastInDim S33554432 ![] bcast_S_S33554432 : (⟨S_, .f32⟩ : BufTy).Contents (Elt F) → (⟨S33554432, .f32⟩ : BufTy).Contents (Elt F)),
    binary main_v38 main_v30 main_v39 (mulf : (⟨S33554432, .f32⟩ : BufTy).Contents (Elt F) → (⟨S33554432, .f32⟩ : BufTy).Contents (Elt F) → (⟨S33554432, .f32⟩ : BufTy).Contents (Elt F)) ]

/-- Operations 81 … 102: the branches, the regression loss and the total. -/
abbrev opsD : List (HloOp τ sig (Elt F)) :=
  [ binary main_v39 main_v30 main_v40 (mulf : (⟨S33554432, .f32⟩ : BufTy).Contents (Elt F) → (⟨S33554432, .f32⟩ : BufTy).Contents (Elt F) → (⟨S33554432, .f32⟩ : BufTy).Contents (Elt F)),
    nullary main_cst_18 (constant S_ .f32 0x3F000000#32),
    unary main_cst_18 main_v41 (broadcastInDim S33554432 ![] bcast_S_S33554432 : (⟨S_, .f32⟩ : BufTy).Contents (Elt F) → (⟨S33554432, .f32⟩ : BufTy).Contents (Elt F)),
    binary main_v40 main_v41 main_v42 (Host.divf : (⟨S33554432, .f32⟩ : BufTy).Contents (Elt F) → (⟨S33554432, .f32⟩ : BufTy).Contents (Elt F) → (⟨S33554432, .f32⟩ : BufTy).Contents (Elt F)),
    nullary main_cst_19 (constant S_ .f32 0x3E800000#32),
    unary main_cst_19 main_v43 (broadcastInDim S33554432 ![] bcast_S_S33554432 : (⟨S_, .f32⟩ : BufTy).Contents (Elt F) → (⟨S33554432, .f32⟩ : BufTy).Contents (Elt F)),
    binary main_v30 main_v43 main_v44 (subf : (⟨S33554432, .f32⟩ : BufTy).Contents (Elt F) → (⟨S33554432, .f32⟩ : BufTy).Contents (Elt F) → (⟨S33554432, .f32⟩ : BufTy).Contents (Elt F)),
    TRef.ternary (TRef.of (T := ⟨S33554432, .i1⟩) main_v37) (TRef.of (T := ⟨S33554432, .f32⟩) main_v42) (TRef.of (T := ⟨S33554432, .f32⟩) main_v44) main_call5.v0 select,
    nullary main_cst_20 (constant S_ .f32 0x3E800000#32),
    unary main_cst_20 main_v46 (broadcastInDim S33554432 ![] bcast_S_S33554432 : (⟨S_, .f32⟩ : BufTy).Contents (Elt F) → (⟨S33554432, .f32⟩ : BufTy).Contents (Elt F)),
    binary main_v46 main_v35 main_v47 (mulf : (⟨S33554432, .f32⟩ : BufTy).Contents (Elt F) → (⟨S33554432, .f32⟩ : BufTy).Contents (Elt F) → (⟨S33554432, .f32⟩ : BufTy).Contents (Elt F)),
    binary main_v47 main_v45 main_v48 (mulf : (⟨S33554432, .f32⟩ : BufTy).Contents (Elt F) → (⟨S33554432, .f32⟩ : BufTy).Contents (Elt F) → (⟨S33554432, .f32⟩ : BufTy).Contents (Elt F)),
    binary main_v48 main_v28 main_v49 (mulf : (⟨S33554432, .f32⟩ : BufTy).Contents (Elt F) → (⟨S33554432, .f32⟩ : BufTy).Contents (Elt F) → (⟨S33554432, .f32⟩ : BufTy).Contents (Elt F)),
    nullary main_cst_21 (constant S_ .f32 0x00000000#32),
    binary main_v49 main_cst_21 main_v50 ((fun x v => Host.reduceAdd x v reducesTo_S33554432_S_d0 h_S_) : (⟨S33554432, .f32⟩ : BufTy).Contents (Elt F) → (⟨S_, .f32⟩ : BufTy).Contents (Elt F) → (⟨S_, .f32⟩ : BufTy).Contents (Elt F)),
    nullary main_cst_22 (constant S_ .f32 0x4C000000#32),
    binary main_v50 main_cst_22 main_v51 (Host.divf : (⟨S_, .f32⟩ : BufTy).Contents (Elt F) → (⟨S_, .f32⟩ : BufTy).Contents (Elt F) → (⟨S_, .f32⟩ : BufTy).Contents (Elt F)),
    nullary main_cst_23 (constant S_ .f32 0x3F800000#32),
    binary main_cst_23 main_v16 main_v52 (mulf : (⟨S_, .f32⟩ : BufTy).Contents (Elt F) → (⟨S_, .f32⟩ : BufTy).Contents (Elt F) → (⟨S_, .f32⟩ : BufTy).Contents (Elt F)),
    nullary main_cst_24 (constant S_ .f32 0x3F800000#32),
    binary main_cst_24 main_v51 main_v53 (mulf : (⟨S_, .f32⟩ : BufTy).Contents (Elt F) → (⟨S_, .f32⟩ : BufTy).Contents (Elt F) → (⟨S_, .f32⟩ : BufTy).Contents (Elt F)),
    binary main_v52 main_v53 main_v54 (addf : (⟨S_, .f32⟩ : BufTy).Contents (Elt F) → (⟨S_, .f32⟩ : BufTy).Contents (Elt F) → (⟨S_, .f32⟩ : BufTy).Contents (Elt F)) ]

/-- @main's 102 operations, in order. -/
abbrev ops : List (HloOp τ sig (Elt F)) := (opsA ++ (opsB ++ opsC)) ++ opsD

set_option maxRecDepth 8192 in
set_option maxHeartbeats 4000000 in
/-- The first window of @main is the first three stretches run in order. -/
theorem main_part0_eq (c : Dev nD) : main_part0 (F := F) c = seq (opsA ++ (opsB ++ opsC)) := rfl

set_option maxRecDepth 8192 in
set_option maxHeartbeats 4000000 in
/-- The second window of @main is the last stretch. -/
theorem main_part1_eq (c : Dev nD) : main_part1 (F := F) c = seq opsD := rfl

/-- @main is the two windows one after the other, and a line of operations followed by another is
    their concatenation run as one line. -/
theorem main_eq (c : Dev nD) : main (F := F) c = seq ops := by
  simp only [ops, seq_append (l₁ := opsA ++ (opsB ++ opsC)) (l₂ := opsD), ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., unary_bufs_sub .., unary_bufs_sub .., nullary_bufs_sub .., unary_bufs_sub .., binary_bufs_sub .., binary_bufs_sub .., nullary_bufs_sub .., unary_bufs_sub .., binary_bufs_sub .., binary_bufs_sub .., binary_bufs_sub .., unary_bufs_sub .., nullary_bufs_sub .., binary_bufs_sub .., nullary_bufs_sub .., binary_bufs_sub ..⟩
theorem opsB_sub : (opsB : List (HloOp τ sig (Elt F))).Forall fun op => op.bufs ⊆ tcRefs τ sig :=
  ⟨reshape_bufs_sub .., reshape_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩
theorem opsC_sub : (opsC : List (HloOp τ sig (Elt F))).Forall fun op => op.bufs ⊆ tcRefs τ sig :=
  ⟨binary_bufs_sub .., unary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩
theorem opsD_sub : (opsD : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub ..⟩

/-- Every operation touches TensorCore buffers only. -/
theorem ops_sub : (ops : List (HloOp τ sig (Elt F))).Forall fun op => op.bufs ⊆ tcRefs τ sig :=
  List.forall_iff_forall_mem.mpr fun op h => by
    simp only [ops, List.mem_append] at h
    rcases h with (h | h | h) | h
    exacts [List.forall_iff_forall_mem.mp opsA_sub op h, List.forall_iff_forall_mem.mp opsB_sub op h,
      List.forall_iff_forall_mem.mp opsC_sub op h, List.forall_iff_forall_mem.mp opsD_sub op h]

/-- The contents after all of @main are the contents after the four stretches in turn. -/
theorem after_ops (V : Valuation τ sig (Elt F)) :
    after ops V = after opsD (after opsC (after opsB (after opsA V))) := by
  simp only [ops, after_append]

/-- From any memory with zero counters every weakly fair execution of @main terminates, and each TensorCore
    buffer ends at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference's three results as composed terms of its four argument arrays.

  Each definition below applies the reference's operations one after another, in the order and with
  the operands the printed program gives them, to the argument arrays taken as functions of an
  index at the ideal values.  `entryBreak` is the array of cross-entropy terms and `tBreak` its
  total from 0 divided by 2^25; the regression chain lives on the flat shape of 2^25 entries:
  `flat` is an argument array re-read in row-major order, `clsArr` the rounded and clipped targets,
  `idxArr` the integer class with a negative class moved up by four, `weightArr` the four-entry
  table looked up at that class, `errArr` the absolute error, `entryReg` the array of regression
  terms and `tReg` its total from 0 divided by 2^25; `tTotal` is 1 * tBreak + 1 * tReg.
-/
import proofs.«127027_j80341658239297_2_alg».proof.ReferenceIdeal
import Idealize.ShloMosaic.PureOps.Ideal

noncomputable section

namespace Cert.ReferenceIdeal.RefTerm

open Cert.ReferenceIdeal Cert.ReferenceIdeal.Facts₀ Idealize.ShloMosaic

variable [Cert.ReferenceIdeal.Facts]

/-- `clip x lo hi` on the 2048 x 16384 shape: `min (broadcast hi) (max (broadcast lo) x)`. -/
def clip2 (x : FVec Ideal S2048x16384 .f32) (lo hi : FVec Ideal S_ .f32) : FVec Ideal S2048x16384 .f32 :=
  minimumf (broadcastInDim S2048x16384 ![] bcast_S_S2048x16384 (id hi))
    (maximumf (broadcastInDim S2048x16384 ![] bcast_S_S2048x16384 (id lo)) x)

/-- `clip x lo hi` on the flat shape. -/
def clip1 (x : FVec Ideal S33554432 .f32) (lo hi : FVec Ideal S_ .f32) : FVec Ideal S33554432 .f32 :=
  minimumf (broadcastInDim S33554432 ![] bcast_S_S33554432 (id hi))
    (maximumf (broadcastInDim S33554432 ![] bcast_S_S33554432 (id lo)) x)

/-- The array of cross-entropy terms: with `t = clip A2 0 1` and `p = clip A0 0 1`,
    `-(t * max (log p) (-100) + (1 - t) * max (log1p (-p)) (-100))`. -/
def entryBreak (A0 A2 : FVec Ideal S2048x16384 .f32) : FVec Ideal S2048x16384 .f32 :=
  Host.negf (F := Ideal)
    (addf
      (mulf
        (clip2 A2 (constant (F := Ideal) S_ .f32 0x00000000#32) (constant (F := Ideal) S_ .f32 0x3F800000#32))
        (maximumf
          (Host.log (F := Ideal)
            (clip2 A0 (constant (F := Ideal) S_ .f32 0x00000000#32) (constant (F := Ideal) S_ .f32 0x3F800000#32)))
          (broadcastInDim S2048x16384 ![] bcast_S_S2048x16384 (constant (F := Ideal) S_ .f32 0xC2C80000#32))))
      (mulf
        (subf
          (broadcastInDim S2048x16384 ![] bcast_S_S2048x16384 (constant (F := Ideal) S_ .f32 0x3F800000#32))
          (clip2 A2 (constant (F := Ideal) S_ .f32 0x00000000#32) (constant (F := Ideal) S_ .f32 0x3F800000#32)))
        (maximumf
          (Host.log1p (F := Ideal)
            (Host.negf (F := Ideal)
              (clip2 A0 (constant (F := Ideal) S_ .f32 0x00000000#32) (constant (F := Ideal) S_ .f32 0x3F800000#32))))
          (broadcastInDim S2048x16384 ![] bcast_S_S2048x16384 (constant (F := Ideal) S_ .f32 0xC2C80000#32)))))

/-- The break loss: the total of the cross-entropy terms from 0, divided by 2^25. -/
def tBreak (A0 A2 : FVec Ideal S2048x16384 .f32) : FVec Ideal S_ .f32 :=
  Host.divf (F := Ideal)
    (Host.reduceAdd (F := Ideal) (entryBreak A0 A2) (constant (F := Ideal) S_ .f32 0x00000000#32)
      reducesTo_S2048x16384_S_d0_1 h_S_)
    (constant (F := Ideal) S_ .f32 0x4C000000#32)

/-- An argument array re-read in row-major order on the flat shape. -/
def flat (A : FVec Ideal S2048x16384 .f32) : FVec Ideal S33554432 .f32 :=
  shapeCast S33554432 A shapeCasts_S2048x16384_S33554432

/-- The targets rounded to the nearest integer (ties to even) and clipped to [0, 3]. -/
def clsArr (A3 : FVec Ideal S2048x16384 .f32) : FVec Ideal S33554432 .f32 :=
  clip1 (Host.roundeven (F := Ideal) (flat A3))
    (constant (F := Ideal) S_ .f32 0x00000000#32) (constant (F := Ideal) S_ .f32 0x40400000#32)

/-- The class as a 32-bit integer. -/
def clsInt (A3 : FVec Ideal S2048x16384 .f32) : IVec S33554432 32 :=
  fptosi (F := Ideal) 32 (clsArr A3)

/-- The table index: the integer class `n`, or `n + 4` where `n < 0`. -/
def idxArr (A3 : FVec Ideal S2048x16384 .f32) : IVec S33554432 32 :=
  select
    (cmpi .slt (clsInt A3) (broadcastInDim S33554432 ![] bcast_S_S33554432 (constantI S_ 32 0#32)))
    (addi (clsInt A3) (broadcastInDim S33554432 ![] bcast_S_S33554432 (constantI S_ 32 4#32)))
    (clsInt A3)

/-- The four-entry table of class weights 1, 4, 3, 2. -/
def table : FVec Ideal S4 .f32 := fun i => FloatOps.ofBits .f32 (lit0 (S4.rowMajor i))

/-- The class weights: the table looked up at the table index of each entry. -/
def weightArr (A3 : FVec Ideal S2048x16384 .f32) : FVec Ideal S33554432 .f32 :=
  Host.gather gather_S4_S33554432x1_S33554432_n_0_n_n_0_1_1 table
    (broadcastInDim S33554432x1 ![0] bcast_S33554432_S33554432x1_0 (idxArr A3))

/-- The absolute error `|A1 - A3|` on the flat shape. -/
def errArr (A1 A3 : FVec Ideal S2048x16384 .f32) : FVec Ideal S33554432 .f32 :=
  Host.absf (F := Ideal) (subf (flat A1) (flat A3))

/-- The array of regression terms: with `d` the absolute error,
    `((1/4 * (clip (d / (1/2)) 0 1) ^ 2) * (if d < 1/2 then (1/2 * d * d) / (1/2) else d - 1/4)) * weight`. -/
def entryReg (A1 A3 : FVec Ideal S2048x16384 .f32) : FVec Ideal S33554432 .f32 :=
  mulf
    (mulf
      (mulf
        (broadcastInDim S33554432 ![] bcast_S_S33554432 (constant (F := Ideal) S_ .f32 0x3E800000#32))
        (Host.powf (F := Ideal)
          (clip1
            (Host.divf (F := Ideal) (errArr A1 A3)
              (broadcastInDim S33554432 ![] bcast_S_S33554432 (constant (F := Ideal) S_ .f32 0x3F000000#32)))
            (constant (F := Ideal) S_ .f32 0x00000000#32) (constant (F := Ideal) S_ .f32 0x3F800000#32))
          (broadcastInDim S33554432 ![] bcast_S_S33554432 (constant (F := Ideal) S_ .f32 0x40000000#32))))
      (select
        (cmpf .olt (errArr A1 A3)
          (broadcastInDim S33554432 ![] bcast_S_S33554432 (constant (F := Ideal) S_ .f32 0x3F000000#32)))
        (Host.divf (F := Ideal)
          (mulf
            (mulf
              (broadcastInDim S33554432 ![] bcast_S_S33554432 (constant (F := Ideal) S_ .f32 0x3F000000#32))
              (errArr A1 A3))
            (errArr A1 A3))
          (broadcastInDim S33554432 ![] bcast_S_S33554432 (constant (F := Ideal) S_ .f32 0x3F000000#32)))
        (subf (errArr A1 A3)
          (broadcastInDim S33554432 ![] bcast_S_S33554432 (constant (F := Ideal) S_ .f32 0x3E800000#32)))))
    (weightArr A3)

/-- The regression loss: the total of the regression terms from 0, divided by 2^25. -/
def tReg (A1 A3 : FVec Ideal S2048x16384 .f32) : FVec Ideal S_ .f32 :=
  Host.divf (F := Ideal)
    (Host.reduceAdd (F := Ideal) (entryReg A1 A3) (constant (F := Ideal) S_ .f32 0x00000000#32)
      reducesTo_S33554432_S_d0 h_S_)
    (constant (F := Ideal) S_ .f32 0x4C000000#32)

/-- The total loss: `1 * tBreak + 1 * tReg`. -/
def tTotal (A0 A1 A2 A3 : FVec Ideal S2048x16384 .f32) : FVec Ideal S_ .f32 :=
  addf (mulf (constant (F := Ideal) S_ .f32 0x3F800000#32) (tBreak A0 A2))
    (mulf (constant (F := Ideal) S_ .f32 0x3F800000#32) (tReg A1 A3))

end Cert.ReferenceIdeal.RefTerm

end
-- ==== Proof.RefRunA.lean ====
/-
  The first stretch of the reference's operations read back: from any contents of the buffers, what the
  break loss's buffer, the weight table's buffer and the four argument buffers hold after the 37
  operations.  Each operation leaves its function's value in its own result buffer and every other
  buffer as it was, so the contents of one buffer after the stretch are the operations' functions
  composed along the chain of buffers that feeds it: for the break loss, the clipped arrays, the
  clamped logarithms, the cross-entropy terms, their total and the division, which is the term
  `tBreak` of the argument arrays; the table is written once and never again; no operation writes
  an argument.
-/
import proofs.«127027_j80341658239297_2_alg».proof.Proof.RefRunOps
import proofs.«127027_j80341658239297_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 2000000 in
/-- After the first stretch the break loss's buffer holds `tBreak` of the first and third arguments. -/
theorem afterA_v16 (V : Valuation τ sig (Elt Ideal)) :
    after (opsA (F := Ideal)) V (main_v16 : DevRef τ sig)
      = RefTerm.tBreak (V (main_arg0 : DevRef τ sig)) (V (main_arg2 : DevRef τ sig)) := by
  after_results_simp
  rfl

set_option maxRecDepth 8192 in
set_option maxHeartbeats 2000000 in
/-- After the first stretch the table's buffer holds the four class weights. -/
theorem afterA_cst (V : Valuation τ sig (Elt Ideal)) :
    after (opsA (F := Ideal)) V (main_cst : DevRef τ sig) = RefTerm.table := by
  after_results_simp
  rfl

set_option maxRecDepth 8192 in
set_option maxHeartbeats 2000000 in
theorem afterA_arg0 (V : Valuation τ sig (Elt Ideal)) :
    after (opsA (F := Ideal)) V (main_arg0 : DevRef τ sig) = V (main_arg0 : DevRef τ sig) := by
  after_results_simp

set_option maxRecDepth 8192 in
set_option maxHeartbeats 2000000 in
theorem afterA_arg1 (V : Valuation τ sig (Elt Ideal)) :
    after (opsA (F := Ideal)) V (main_arg1 : DevRef τ sig) = V (main_arg1 : DevRef τ sig) := by
  after_results_simp

set_option maxRecDepth 8192 in
set_option maxHeartbeats 2000000 in
theorem afterA_arg2 (V : Valuation τ sig (Elt Ideal)) :
    after (opsA (F := Ideal)) V (main_arg2 : DevRef τ sig) = V (main_arg2 : DevRef τ sig) := by
  after_results_simp

set_option maxRecDepth 8192 in
set_option maxHeartbeats 2000000 in
theorem afterA_arg3 (V : Valuation τ sig (Elt Ideal)) :
    after (opsA (F := Ideal)) V (main_arg3 : DevRef τ sig) = V (main_arg3 : DevRef τ sig) := by
  after_results_simp

end Cert.ReferenceIdeal.RefRun

end
-- ==== Proof.RefRunB.lean ====
/-
  The second stretch read back: from any contents of the buffers, what the two flattened regression
  arrays' buffers, the class weights' buffer, the break loss's buffer and the argument buffers hold
  after its 21 operations.  The flattened arrays are the second and fourth arguments re-read in
  row-major order; the weights are the table's buffer looked up at the table index of the fourth
  argument (its entries rounded, clipped to [0, 3], converted to integers, a negative one moved up by
  four); nothing in the stretch writes the break loss's buffer or an argument.
-/
import proofs.«127027_j80341658239297_2_alg».proof.Proof.RefRunOps
import proofs.«127027_j80341658239297_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 2000000 in
/-- The second argument, flattened. -/
theorem afterB_v17 (V : Valuation τ sig (Elt Ideal)) :
    after (opsB (F := Ideal)) V (main_v17 : DevRef τ sig)
      = RefTerm.flat (V (main_arg1 : DevRef τ sig)) := by
  after_results_simp
  rfl

set_option maxRecDepth 8192 in
set_option maxHeartbeats 2000000 in
/-- The fourth argument, flattened. -/
theorem afterB_v18 (V : Valuation τ sig (Elt Ideal)) :
    after (opsB (F := Ideal)) V (main_v18 : DevRef τ sig)
      = RefTerm.flat (V (main_arg3 : DevRef τ sig)) := by
  after_results_simp
  rfl

set_option maxRecDepth 8192 in
set_option maxHeartbeats 2000000 in
/-- The class weights: the table's buffer looked up at the table index of the fourth argument's entries. -/
theorem afterB_v28 (V : Valuation τ sig (Elt Ideal)) :
    after (opsB (F := Ideal)) V (main_v28 : DevRef τ sig)
      = Host.gather gather_S4_S33554432x1_S33554432_n_0_n_n_0_1_1 (V (main_cst : DevRef τ sig))
          (broadcastInDim S33554432x1 ![0] bcast_S33554432_S33554432x1_0 (RefTerm.idxArr (V (main_arg3 : DevRef τ sig)))) := by
  after_results_simp
  rfl

set_option maxRecDepth 8192 in
set_option maxHeartbeats 2000000 in
theorem afterB_v16 (V : Valuation τ sig (Elt Ideal)) :
    after (opsB (F := Ideal)) V (main_v16 : DevRef τ sig) = V (main_v16 : DevRef τ sig) := by
  after_results_simp

set_option maxRecDepth 8192 in
set_option maxHeartbeats 2000000 in
theorem afterB_arg0 (V : Valuation τ sig (Elt Ideal)) :
    after (opsB (F := Ideal)) V (main_arg0 : DevRef τ sig) = V (main_arg0 : DevRef τ sig) := by
  after_results_simp

set_option maxRecDepth 8192 in
set_option maxHeartbeats 2000000 in
theorem afterB_arg1 (V : Valuation τ sig (Elt Ideal)) :
    after (opsB (F := Ideal)) V (main_arg1 : DevRef τ sig) = V (main_arg1 : DevRef τ sig) := by
  after_results_simp

set_option maxRecDepth 8192 in
set_option maxHeartbeats 2000000 in
theorem afterB_arg2 (V : Valuation τ sig (Elt Ideal)) :
    after (opsB (F := Ideal)) V (main_arg2 : DevRef τ sig) = V (main_arg2 : DevRef τ sig) := by
  after_results_simp

set_option maxRecDepth 8192 in
set_option maxHeartbeats 2000000 in
theorem afterB_arg3 (V : Valuation τ sig (Elt Ideal)) :
    after (opsB (F := Ideal)) V (main_arg3 : DevRef τ sig) = V (main_arg3 : DevRef τ sig) := by
  after_results_simp

end Cert.ReferenceIdeal.RefRun

end
-- ==== Proof.RefRunC.lean ====
/-
  The third stretch read back: from any contents of the buffers, what the buffers of the absolute error,
  of its clipped double squared, of its comparison with one half and of half the error hold after its
  22 operations, each as a function of the two flattened arrays' buffers; nothing in the stretch writes
  the break loss's buffer, the class weights' buffer or an argument.
-/
import proofs.«127027_j80341658239297_2_alg».proof.Proof.RefRunOps
import proofs.«127027_j80341658239297_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The absolute error of two flat arrays: `|a - b|`, entry by entry. -/
def errOf (a b : FVec Ideal S33554432 .f32) : FVec Ideal S33554432 .f32 :=
  Host.absf (F := Ideal) (subf a b)

set_option maxRecDepth 8192 in
set_option maxHeartbeats 2000000 in
/-- The absolute error of the two flattened arrays. -/
theorem afterC_v30 (V : Valuation τ sig (Elt Ideal)) :
    after (opsC (F := Ideal)) V (main_v30 : DevRef τ sig)
      = (errOf (V (main_v17 : DevRef τ sig)) (V (main_v18 : DevRef τ sig))) := by
  after_results_simp
  rfl

set_option maxRecDepth 8192 in
set_option maxHeartbeats 2000000 in
/-- The error divided by one half, clipped to [0, 1], to the power two. -/
theorem afterC_v35 (V : Valuation τ sig (Elt Ideal)) :
    after (opsC (F := Ideal)) V (main_v35 : DevRef τ sig)
      = Host.powf (F := Ideal)
          (RefTerm.clip1 (Host.divf (F := Ideal) (errOf (V (main_v17 : DevRef τ sig)) (V (main_v18 : DevRef τ sig))) (broadcastInDim S33554432 ![] bcast_S_S33554432 (constant (F := Ideal) S_ .f32 0x3F000000#32)))
            (constant (F := Ideal) S_ .f32 0x00000000#32) (constant (F := Ideal) S_ .f32 0x3F800000#32))
          (broadcastInDim S33554432 ![] bcast_S_S33554432 (constant (F := Ideal) S_ .f32 0x40000000#32)) := by
  after_results_simp
  rfl

set_option maxRecDepth 8192 in
set_option maxHeartbeats 2000000 in
/-- Where the error is below one half. -/
theorem afterC_v37 (V : Valuation τ sig (Elt Ideal)) :
    after (opsC (F := Ideal)) V (main_v37 : DevRef τ sig)
      = cmpf .olt (errOf (V (main_v17 : DevRef τ sig)) (V (main_v18 : DevRef τ sig))) (broadcastInDim S33554432 ![] bcast_S_S33554432 (constant (F := Ideal) S_ .f32 0x3F000000#32)) := by
  after_results_simp
  rfl

set_option maxRecDepth 8192 in
set_option maxHeartbeats 2000000 in
/-- One half times the error. -/
theorem afterC_v39 (V : Valuation τ sig (Elt Ideal)) :
    after (opsC (F := Ideal)) V (main_v39 : DevRef τ sig)
      = mulf (broadcastInDim S33554432 ![] bcast_S_S33554432 (constant (F := Ideal) S_ .f32 0x3F000000#32)) (errOf (V (main_v17 : DevRef τ sig)) (V (main_v18 : DevRef τ sig))) := by
  after_results_simp
  rfl

set_option maxRecDepth 8192 in
set_option maxHeartbeats 2000000 in
theorem afterC_v16 (V : Valuation τ sig (Elt Ideal)) :
    after (opsC (F := Ideal)) V (main_v16 : DevRef τ sig) = V (main_v16 : DevRef τ sig) := by
  after_results_simp

set_option maxRecDepth 8192 in
set_option maxHeartbeats 2000000 in
theorem afterC_v28 (V : Valuation τ sig (Elt Ideal)) :
    after (opsC (F := Ideal)) V (main_v28 : DevRef τ sig) = V (main_v28 : DevRef τ sig) := by
  after_results_simp

set_option maxRecDepth 8192 in
set_option maxHeartbeats 2000000 in
theorem afterC_arg0 (V : Valuation τ sig (Elt Ideal)) :
    after (opsC (F := Ideal)) V (main_arg0 : DevRef τ sig) = V (main_arg0 : DevRef τ sig) := by
  after_results_simp

set_option maxRecDepth 8192 in
set_option maxHeartbeats 2000000 in
theorem afterC_arg1 (V : Valuation τ sig (Elt Ideal)) :
    after (opsC (F := Ideal)) V (main_arg1 : DevRef τ sig) = V (main_arg1 : DevRef τ sig) := by
  after_results_simp

set_option maxRecDepth 8192 in
set_option maxHeartbeats 2000000 in
theorem afterC_arg2 (V : Valuation τ sig (Elt Ideal)) :
    after (opsC (F := Ideal)) V (main_arg2 : DevRef τ sig) = V (main_arg2 : DevRef τ sig) := by
  after_results_simp

set_option maxRecDepth 8192 in
set_option maxHeartbeats 2000000 in
theorem afterC_arg3 (V : Valuation τ sig (Elt Ideal)) :
    after (opsC (F := Ideal)) V (main_arg3 : DevRef τ sig) = V (main_arg3 : DevRef τ sig) := by
  after_results_simp

end Cert.ReferenceIdeal.RefRun

end
-- ==== Proof.RefRunD.lean ====
/-
  The last stretch read back: from any contents of the buffers, what the regression loss's buffer and the
  total's buffer hold after its 22 operations.  The regression terms are
  `((1/4 * p) * (if c then (q * d) / (1/2) else d - 1/4)) * w` of the buffers the earlier stretches
  left: `p` the squared clipped error, `c` the comparison, `q` half the error, `d` the error, `w`
  the class weights; the regression loss is their total from 0 divided by 2^25, and the total loss is
  one times the break loss's buffer plus one times the regression loss.  Nothing in the stretch writes
  the break loss's buffer or an argument.
-/
import proofs.«127027_j80341658239297_2_alg».proof.Proof.RefRunOps
import proofs.«127027_j80341658239297_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The array of regression terms from its five operand arrays. -/
def regOf (p : FVec Ideal S33554432 .f32) (c : IVec S33554432 1) (q d w : FVec Ideal S33554432 .f32) :
    FVec Ideal S33554432 .f32 :=
  mulf
    (mulf
      (mulf (broadcastInDim S33554432 ![] bcast_S_S33554432 (constant (F := Ideal) S_ .f32 0x3E800000#32)) p)
      (select c
        (Host.divf (F := Ideal) (mulf q d) (broadcastInDim S33554432 ![] bcast_S_S33554432 (constant (F := Ideal) S_ .f32 0x3F000000#32)))
        (subf d (broadcastInDim S33554432 ![] bcast_S_S33554432 (constant (F := Ideal) S_ .f32 0x3E800000#32)))))
    w

set_option maxRecDepth 8192 in
set_option maxHeartbeats 2000000 in
/-- The regression loss: the total of the regression terms from 0, divided by 2^25. -/
theorem afterD_v51 (V : Valuation τ sig (Elt Ideal)) :
    after (opsD (F := Ideal)) V (main_v51 : DevRef τ sig)
      = (Host.divf (F := Ideal)
          (Host.reduceAdd (F := Ideal) (regOf (V (main_v35 : DevRef τ sig)) (V (main_v37 : DevRef τ sig)) (V (main_v39 : DevRef τ sig)) (V (main_v30 : DevRef τ sig)) (V (main_v28 : DevRef τ sig))) (constant (F := Ideal) S_ .f32 0x00000000#32) reducesTo_S33554432_S_d0 h_S_)
          (constant (F := Ideal) S_ .f32 0x4C000000#32)) := by
  after_results_simp
  rfl

set_option maxRecDepth 8192 in
set_option maxHeartbeats 2000000 in
/-- The total: one times the break loss's buffer plus one times the regression loss. -/
theorem afterD_v54 (V : Valuation τ sig (Elt Ideal)) :
    after (opsD (F := Ideal)) V (main_v54 : DevRef τ sig)
      = addf (mulf (constant (F := Ideal) S_ .f32 0x3F800000#32) (V (main_v16 : DevRef τ sig)))
          (mulf (constant (F := Ideal) S_ .f32 0x3F800000#32) (Host.divf (F := Ideal)
          (Host.reduceAdd (F := Ideal) (regOf (V (main_v35 : DevRef τ sig)) (V (main_v37 : DevRef τ sig)) (V (main_v39 : DevRef τ sig)) (V (main_v30 : DevRef τ sig)) (V (main_v28 : DevRef τ sig))) (constant (F := Ideal) S_ .f32 0x00000000#32) reducesTo_S33554432_S_d0 h_S_)
          (constant (F := Ideal) S_ .f32 0x4C000000#32))) := by
  after_results_simp
  rfl

set_option maxRecDepth 8192 in
set_option maxHeartbeats 2000000 in
theorem afterD_v16 (V : Valuation τ sig (Elt Ideal)) :
    after (opsD (F := Ideal)) V (main_v16 : DevRef τ sig) = V (main_v16 : DevRef τ sig) := by
  after_results_simp

set_option maxRecDepth 8192 in
set_option maxHeartbeats 2000000 in
theorem afterD_arg0 (V : Valuation τ sig (Elt Ideal)) :
    after (opsD (F := Ideal)) V (main_arg0 : DevRef τ sig) = V (main_arg0 : DevRef τ sig) := by
  after_results_simp

set_option maxRecDepth 8192 in
set_option maxHeartbeats 2000000 in
theorem afterD_arg1 (V : Valuation τ sig (Elt Ideal)) :
    after (opsD (F := Ideal)) V (main_arg1 : DevRef τ sig) = V (main_arg1 : DevRef τ sig) := by
  after_results_simp

set_option maxRecDepth 8192 in
set_option maxHeartbeats 2000000 in
theorem afterD_arg2 (V : Valuation τ sig (Elt Ideal)) :
    after (opsD (F := Ideal)) V (main_arg2 : DevRef τ sig) = V (main_arg2 : DevRef τ sig) := by
  after_results_simp

set_option maxRecDepth 8192 in
set_option maxHeartbeats 2000000 in
theorem afterD_arg3 (V : Valuation τ sig (Elt Ideal)) :
    after (opsD (F := Ideal)) V (main_arg3 : DevRef τ sig) = V (main_arg3 : DevRef τ sig) := by
  after_results_simp

end Cert.ReferenceIdeal.RefRun

end
-- ==== Proof.RefRun.lean ====
/-
  The reference's run.  @main is a straight line of 102 host operations, so from any memory with zero
  counters every weakly fair execution terminates and leaves in each buffer the fold of the operations'
  results over the launch contents.  Read stretch by stretch, each stretch from what the one before
  leaves: the break loss's buffer ends at `tBreak` of the first and third arguments (written in the
  first stretch, kept by the other three); the regression loss's buffer at `tReg` of the second and
  fourth (the last stretch's mean of the regression terms, whose five operand arrays the second and
  third stretches computed from the flattened arguments and the table the first stretch wrote); the
  total's buffer at one times the one plus one times the other; and the four arguments are as they
  were at launch.
-/
import proofs.«127027_j80341658239297_2_alg».proof.Proof.RefRunA
import proofs.«127027_j80341658239297_2_alg».proof.Proof.RefRunB
import proofs.«127027_j80341658239297_2_alg».proof.Proof.RefRunC
import proofs.«127027_j80341658239297_2_alg».proof.Proof.RefRunD

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The break loss after all of @main. -/
theorem after_ops_v16 (V : Valuation τ sig (Elt Ideal)) :
    after (ops (F := Ideal)) V (main_v16 : DevRef τ sig)
      = RefTerm.tBreak (V (main_arg0 : DevRef τ sig)) (V (main_arg2 : DevRef τ sig)) := by
  rw [after_ops, afterD_v16, afterC_v16, afterB_v16, afterA_v16]

/-- The regression loss after all of @main: the last stretch's mean with each operand buffer replaced by
    what the earlier stretches left in it is `tReg` with its definitions opened. -/
theorem after_ops_v51 (V : Valuation τ sig (Elt Ideal)) :
    after (ops (F := Ideal)) V (main_v51 : DevRef τ sig)
      = RefTerm.tReg (V (main_arg1 : DevRef τ sig)) (V (main_arg3 : DevRef τ sig)) := by
  rw [after_ops, afterD_v51, afterC_v35, afterC_v37, afterC_v39, afterC_v30, afterC_v28, afterB_v28, afterB_v17, afterB_v18, afterA_cst, afterA_arg1, afterA_arg3]
  delta RefTerm.tReg RefTerm.entryReg RefTerm.errArr RefTerm.weightArr regOf errOf
  rfl

/-- The total after all of @main. -/
theorem after_ops_v54 (V : Valuation τ sig (Elt Ideal)) :
    after (ops (F := Ideal)) V (main_v54 : DevRef τ sig)
      = RefTerm.tTotal (V (main_arg0 : DevRef τ sig)) (V (main_arg1 : DevRef τ sig)) (V (main_arg2 : DevRef τ sig)) (V (main_arg3 : DevRef τ sig)) := by
  rw [after_ops, afterD_v54, afterC_v16, afterB_v16, afterA_v16, afterC_v35, afterC_v37, afterC_v39, afterC_v30, afterC_v28, afterB_v28, afterB_v17, afterB_v18, afterA_cst, afterA_arg1, afterA_arg3]
  delta RefTerm.tTotal RefTerm.tReg RefTerm.entryReg RefTerm.errArr RefTerm.weightArr regOf errOf
  rfl

/-- No operation of @main writes the argument `main_arg0`. -/
theorem after_ops_arg0 (V : Valuation τ sig (Elt Ideal)) :
    after (ops (F := Ideal)) V (main_arg0 : DevRef τ sig) = V (main_arg0 : DevRef τ sig) := by
  rw [after_ops, afterD_arg0, afterC_arg0, afterB_arg0, afterA_arg0]

/-- No operation of @main writes the argument `main_arg1`. -/
theorem after_ops_arg1 (V : Valuation τ sig (Elt Ideal)) :
    after (ops (F := Ideal)) V (main_arg1 : DevRef τ sig) = V (main_arg1 : DevRef τ sig) := by
  rw [after_ops, afterD_arg1, afterC_arg1, afterB_arg1, afterA_arg1]

/-- No operation of @main writes the argument `main_arg2`. -/
theorem after_ops_arg2 (V : Valuation τ sig (Elt Ideal)) :
    after (ops (F := Ideal)) V (main_arg2 : DevRef τ sig) = V (main_arg2 : DevRef τ sig) := by
  rw [after_ops, afterD_arg2, afterC_arg2, afterB_arg2, afterA_arg2]

/-- No operation of @main writes the argument `main_arg3`. -/
theorem after_ops_arg3 (V : Valuation τ sig (Elt Ideal)) :
    after (ops (F := Ideal)) V (main_arg3 : DevRef τ sig) = V (main_arg3 : DevRef τ sig) := by
  rw [after_ops, afterD_arg3, afterC_arg3, afterB_arg3, afterA_arg3]

/-- From any memory with zero counters every weakly fair execution of the reference terminates with the total,
    the break loss and the regression loss at their composed terms of the argument arrays at launch, and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v54) = RefTerm.tTotal (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v16) = RefTerm.tBreak (m ((c.tc : Thread nD τ).loc main_arg0)) (m ((c.tc : Thread nD τ).loc main_arg2))
      ∧ r.2.mem ((c.tc : Thread nD τ).loc main_v51) = RefTerm.tReg (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_v54).trans (after_ops_v54 (launchContents m c)),
       (h c main_v16).trans (after_ops_v16 (launchContents m c)),
       (h c main_v51).trans (after_ops_v51 (launchContents m c)),
       (h c main_arg0).trans (after_ops_arg0 (launchContents m c)),
       (h c main_arg1).trans (after_ops_arg1 (launchContents m c)),
       (h c main_arg2).trans (after_ops_arg2 (launchContents m c)),
       (h c main_arg3).trans (after_ops_arg3 (launchContents m c))⟩)
    (run_main m ρ)

end Cert.ReferenceIdeal.RefRun

end
-- ==== Proof.RefReadBreak.lean ====
/-
  The reference's break loss read at an index.

  The total of an array from an initial value, into the shape with no axes, is the initial value
  plus the sum over every index; each cross-entropy term, read at an index, is the pointwise
  operations applied to the two arguments' entries there, which is `rBce` as spelt.
-/
import proofs.«127027_j80341658239297_2_alg».proof.Proof.RefTerm
import proofs.«127027_j80341658239297_2_alg».proof.Proof.Spec

noncomputable section

namespace Cert.ReferenceIdeal.RefRead

open Cert.ReferenceIdeal Cert.ReferenceIdeal.Facts₀ Idealize.ShloMosaic Cert.Loss

variable [Cert.ReferenceIdeal.Facts]

/-- A cross-entropy term at an index is `rBce` of the two arguments' entries there. -/
theorem entryBreak_apply (A0 A2 : FVec Ideal S2048x16384 .f32) (i : S2048x16384.Idx) :
    RefTerm.entryBreak A0 A2 i = rBce (A0 i) (A2 i) := rfl

set_option maxHeartbeats 400000 in
/-- The break loss is the mean of the cross-entropy terms. -/
theorem tBreak_eq (A0 A2 : FVec Ideal S2048x16384 .f32) : RefTerm.tBreak A0 A2 = fun _ => rBreak A0 A2 := by
  funext j
  have h : RefTerm.tBreak A0 A2 j
      = Ideal.div (Ideal.hostReduceAdd reducesTo_S2048x16384_S_d0_1 (RefTerm.entryBreak A0 A2)
          (Ideal.ofBits .f32 0x00000000#32) j) (Ideal.ofBits .f32 0x4C000000#32) := rfl
  rw [h, Ideal.hostReduceAdd_total _ (fun b => b.elim0)]
  unfold rBreak rMean
  exact congrArg (fun t => Ideal.div (Ideal.ofBits .f32 0x00000000#32 + t) (Ideal.ofBits .f32 0x4C000000#32))
    (Finset.sum_congr rfl fun i _ => entryBreak_apply A0 A2 i)

end Cert.ReferenceIdeal.RefRead

end
-- ==== Proof.RefReadWeight.lean ====
/-
  The reference's class weight read at an index.

  The reference rounds a target to the nearest integer, clips it to [0, 3], reads it as a 32-bit
  signed integer `n`, moves a negative `n` up by four, and looks the result up in the four-entry
  table 1, 4, 3, 2; the lookup reads its start index signed and clamps it into [0, 3].  Read at
  a flat index, the start index is that entry's, so the weight depends on the entry's target
  alone: it is `refWeight` of the target.
-/
import proofs.«127027_j80341658239297_2_alg».proof.Proof.RefTerm
import proofs.«127027_j80341658239297_2_alg».proof.Proof.Spec

noncomputable section

namespace Cert.ReferenceIdeal.RefRead

open Cert.ReferenceIdeal Cert.ReferenceIdeal.Facts₀ Idealize.ShloMosaic Idealize.ShloMosaic.ValueIdx Cert.Loss

/-- The table index the reference computes for a target `y`: with `n` the class of `y` as a 32-bit signed
    integer, `n + 4` where `n < 0`, else `n`. -/
def refIdx (y : EReal) : BitVec 32 :=
  Scalar.select (IntOp.cmpi .slt (Ideal.fptosi 32 (cls y)) 0#32) (IntOp.addi (Ideal.fptosi 32 (cls y)) 4#32)
    (Ideal.fptosi 32 (cls y))

/-- The class weight the reference looks up for a target `y`: the table's word at the table index read signed and
    clamped into [0, 3]. -/
def refWeight (y : EReal) : EReal :=
  Ideal.ofBits .f32 (lit0 ⟨min (refIdx y).toInt.toNat 3, by omega⟩)

variable [Cert.ReferenceIdeal.Facts]

/-- The lookup read at flat index `a`: the table at the start index of row `a`, read signed and clamped into [0, 3]. -/
theorem gather_apply {α : Type} (x : S4.Idx → α) (idx : IVec S33554432x1 32) (a : Fin 33554432) :
    Host.gather gather_S4_S33554432x1_S33554432_n_0_n_n_0_1_1 x idx (ix1 a)
      = x (ix1 ⟨min (idx (ix2 a (0 : Fin 1))).toInt.toNat 3, by omega⟩) := by
  unfold Host.gather
  congr 1
  funext b
  obtain rfl : b = 0 := Subsingleton.elim _ _
  refine Fin.ext ?_
  show gather_S4_S33554432x1_S33554432_n_0_n_n_0_1_1.start (ix1 a) idx 0
      + gather_S4_S33554432x1_S33554432_n_0_n_n_0_1_1.batchCoord (ix1 a) 0
      + gather_S4_S33554432x1_S33554432_n_0_n_n_0_1_1.offCoord (ix1 a) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S4_S33554432x1_S33554432_n_0_n_n_0_1_1.startIndexMap from
    List.mem_singleton.mpr rfl)]
  have hsi : gather_S4_S33554432x1_S33554432_n_0_n_n_0_1_1.siIdx (ix1 a)
      ⟨List.idxOf (0 : Fin 1) gather_S4_S33554432x1_S33554432_n_0_n_n_0_1_1.startIndexMap,
        List.idxOf_lt_length_iff.2 (List.mem_singleton.mpr rfl)⟩ = ix2 a (0 : Fin 1) := by
    funext b; refine Fin.ext ?_
    match b with
    | ⟨0, _⟩ => rfl
    | ⟨1, _⟩ => rfl
  rw [hsi]
  rfl

/-- The column of start indices read at row `a` is the flat array of table indices at `a`. -/
theorem bcastCol_apply (x : IVec S33554432 32) (a : Fin 33554432) :
    broadcastInDim S33554432x1 ![0] bcast_S33554432_S33554432x1_0 x (ix2 a (0 : Fin 1)) = x (ix1 a) := by
  unfold broadcastInDim
  refine congrArg x (funext fun b => ?_)
  match b with
  | ⟨0, _⟩ => rfl

/-- The rounded and clipped target at a flat index is `cls` of the target at the matched index of the array. -/
theorem clsArr_apply (A3 : FVec Ideal S2048x16384 .f32) (k : S33554432.Idx) :
    RefTerm.clsArr A3 k = cls (A3 (Shape.reshapeEquiv shapeCasts_S2048x16384_S33554432 k)) := rfl

/-- The table index at a flat index is `refIdx` of the target there. -/
theorem idxArr_apply (A3 : FVec Ideal S2048x16384 .f32) (k : S33554432.Idx) :
    RefTerm.idxArr A3 k = refIdx (A3 (Shape.reshapeEquiv shapeCasts_S2048x16384_S33554432 k)) := rfl

set_option maxHeartbeats 400000 in
/-- The class weight at a flat index is `refWeight` of the target there. -/
theorem weightArr_apply (A3 : FVec Ideal S2048x16384 .f32) (k : S33554432.Idx) :
    RefTerm.weightArr A3 k = refWeight (A3 (Shape.reshapeEquiv shapeCasts_S2048x16384_S33554432 k)) := by
  obtain ⟨a, rfl⟩ : ∃ a : Fin 33554432, k = ix1 a := ⟨k 0, eq_ix1 k⟩
  have hi : broadcastInDim S33554432x1 ![0] bcast_S33554432_S33554432x1_0 (RefTerm.idxArr A3) (ix2 a (0 : Fin 1))
      = refIdx (A3 (Shape.reshapeEquiv shapeCasts_S2048x16384_S33554432 (ix1 a))) :=
    (bcastCol_apply _ a).trans (idxArr_apply A3 (ix1 a))
  unfold RefTerm.weightArr
  refine (gather_apply _ _ a).trans ?_
  unfold RefTerm.table refWeight
  refine congrArg (fun c => Ideal.ofBits .f32 (lit0 c)) (Fin.ext ?_)
  rw [Shape.rowMajor_val_one]
  show min (broadcastInDim S33554432x1 ![0] bcast_S33554432_S33554432x1_0 (RefTerm.idxArr A3)
      (ix2 a (0 : Fin 1))).toInt.toNat 3 = _
  rw [hi]

end Cert.ReferenceIdeal.RefRead

end
-- ==== Proof.RefReadReg.lean ====
/-
  The reference's regression loss read at an index.

  On the flat shape every operation of the regression chain is pointwise, so a regression term at a
  flat index is `rRegEl`, with the looked-up weight, of the two arguments' entries at the matched
  index of the array.  The flat indices and the array's indices are matched one to one by the
  row-major order, so the total over the flat indices is the total over the array's indices.
-/
import proofs.«127027_j80341658239297_2_alg».proof.Proof.RefReadWeight

noncomputable section

namespace Cert.ReferenceIdeal.RefRead

open Cert.ReferenceIdeal Cert.ReferenceIdeal.Facts₀ Idealize.ShloMosaic Idealize.ShloMosaic.ValueIdx Cert.Loss

variable [Cert.ReferenceIdeal.Facts]

/-- The absolute error at a flat index is `absErr` of the two arguments' entries at the matched index. -/
theorem errArr_apply (A1 A3 : FVec Ideal S2048x16384 .f32) (k : S33554432.Idx) :
    RefTerm.errArr A1 A3 k
      = absErr (A1 (Shape.reshapeEquiv shapeCasts_S2048x16384_S33554432 k))
          (A3 (Shape.reshapeEquiv shapeCasts_S2048x16384_S33554432 k)) := rfl

set_option maxHeartbeats 400000 in
/-- A regression term at a flat index, the weight left as the array of looked-up weights there. -/
theorem entryReg_apply_weightArr (A1 A3 : FVec Ideal S2048x16384 .f32) (k : S33554432.Idx) :
    RefTerm.entryReg A1 A3 k
      = rRegEl (RefTerm.weightArr A3 k) (A1 (Shape.reshapeEquiv shapeCasts_S2048x16384_S33554432 k))
          (A3 (Shape.reshapeEquiv shapeCasts_S2048x16384_S33554432 k)) := rfl

/-- A regression term at a flat index is `rRegEl`, with the weight the reference looks up for the target,
    of the two arguments' entries at the matched index. -/
theorem entryReg_apply (A1 A3 : FVec Ideal S2048x16384 .f32) (k : S33554432.Idx) :
    RefTerm.entryReg A1 A3 k
      = (fun i => rRegEl (refWeight (A3 i)) (A1 i) (A3 i))
          (Shape.reshapeEquiv shapeCasts_S2048x16384_S33554432 k) := by
  rw [entryReg_apply_weightArr, weightArr_apply]

set_option maxHeartbeats 400000 in
/-- The regression loss is the mean of the regression terms over the array's indices. -/
theorem tReg_eq (A1 A3 : FVec Ideal S2048x16384 .f32) :
    RefTerm.tReg A1 A3 = fun _ => rReg (fun i => refWeight (A3 i)) A1 A3 := by
  funext j
  have h : RefTerm.tReg A1 A3 j
      = Ideal.div (Ideal.hostReduceAdd reducesTo_S33554432_S_d0 (RefTerm.entryReg A1 A3)
          (Ideal.ofBits .f32 0x00000000#32) j) (Ideal.ofBits .f32 0x4C000000#32) := rfl
  rw [h, Ideal.hostReduceAdd_total _ (fun b => b.elim0)]
  unfold rReg rMean
  refine congrArg (fun t => Ideal.div (Ideal.ofBits .f32 0x00000000#32 + t) (Ideal.ofBits .f32 0x4C000000#32)) ?_
  rw [Finset.sum_congr rfl fun k _ => entryReg_apply A1 A3 k]
  exact Equiv.sum_comp (Shape.reshapeEquiv shapeCasts_S2048x16384_S33554432)
    (fun i => rRegEl (refWeight (A3 i)) (A1 i) (A3 i))

end Cert.ReferenceIdeal.RefRead

end
-- ==== Proof.RefReadWeightCoe.lean ====
/-
  On a real target the reference's looked-up weight is the kernel's computed one.

  A real `y` rounds to an integer, and clipping to [0, 3] leaves one of 0, 1, 2, 3; read as a
  32-bit signed integer it is that integer, which is not negative, so the table index is the class
  itself and the clamp into [0, 3] does nothing.  The table 1, 4, 3, 2 holds 1 at class 0 and
  5 minus the class at classes 1, 2, 3, which is what the compare-and-select gives: the class is
  below one half exactly at class 0.
-/
import proofs.«127027_j80341658239297_2_alg».proof.Proof.RefReadWeight

noncomputable section

namespace Cert.ReferenceIdeal.RefRead

open Cert.ReferenceIdeal Idealize.ShloMosaic Idealize.ShloMosaic.ValueIdx Cert.Loss

/-! ## The float literals as extended reals -/

theorem ofBits_f32_zero : Ideal.ofBits .f32 0x00000000#32 = ((0 : ℝ) : EReal) := by
  simp [Ideal.ofBits, Ideal.ieee]
theorem ofBits_f32_half : Ideal.ofBits .f32 0x3F000000#32 = ((1 / 2 : ℝ) : EReal) := by
  simp [Ideal.ofBits, Ideal.ieee, -EReal.coe_mul]; norm_num
theorem ofBits_f32_one : Ideal.ofBits .f32 0x3F800000#32 = ((1 : ℝ) : EReal) := by
  simp [Ideal.ofBits, Ideal.ieee, -EReal.coe_mul]; norm_num
theorem ofBits_f32_two : Ideal.ofBits .f32 0x40000000#32 = ((2 : ℝ) : EReal) := by
  simp [Ideal.ofBits, Ideal.ieee, -EReal.coe_mul]; norm_num
theorem ofBits_f32_three : Ideal.ofBits .f32 0x40400000#32 = ((3 : ℝ) : EReal) := by
  simp [Ideal.ofBits, Ideal.ieee, -EReal.coe_mul]; norm_num
theorem ofBits_f32_four : Ideal.ofBits .f32 0x40800000#32 = ((4 : ℝ) : EReal) := by
  simp [Ideal.ofBits, Ideal.ieee, -EReal.coe_mul]; norm_num
theorem ofBits_f32_five : Ideal.ofBits .f32 0x40A00000#32 = ((5 : ℝ) : EReal) := by
  simp [Ideal.ofBits, Ideal.ieee, -EReal.coe_mul]; norm_num

/-! ## The class of a real target -/

/-- The class of a real target is one of the integers 0, 1, 2, 3. -/
theorem cls_coe (y : ℝ) : ∃ c : ℤ, 0 ≤ c ∧ c ≤ 3 ∧ cls (y : EReal) = ((c : ℝ) : EReal) := by
  refine ⟨min 3 (max 0 (Ideal.roundHalfEven y)), by omega, by omega, ?_⟩
  unfold cls
  rw [ofBits_f32_three, ofBits_f32_zero]
  show min ((3 : ℝ) : EReal) (max ((0 : ℝ) : EReal) (((Ideal.roundHalfEven y : ℤ) : ℝ) : EReal)) = _
  rw [← EReal.coe_strictMono.monotone.map_max, ← EReal.coe_strictMono.monotone.map_min]
  push_cast
  rfl

/-- An integer between 0 and 3, read off the extended reals as a 32-bit signed integer, is itself. -/
theorem fptosi_int (c : ℤ) (h0 : 0 ≤ c) (h3 : c ≤ 3) : Ideal.fptosi 32 ((c : ℝ) : EReal) = BitVec.ofInt 32 c := by
  unfold Ideal.fptosi
  show BitVec.ofInt 32 (max _ (min _ (if 0 ≤ (c : ℝ) then ⌊(c : ℝ)⌋ else ⌈(c : ℝ)⌉))) = _
  rw [if_pos (by exact_mod_cast h0), Int.floor_intCast]
  congr 1
  omega

/-! ## The table at a class -/

/-- The table's word at the integer class `n`: `n` moved up by four where negative, read signed, clamped into [0, 3]. -/
def tableAt (n : BitVec 32) : BitVec 32 :=
  lit0 ⟨min (Scalar.select (IntOp.cmpi .slt n 0#32) (IntOp.addi n 4#32) n).toInt.toNat 3, by omega⟩

theorem refWeight_eq_tableAt (y : EReal) : refWeight y = Ideal.ofBits .f32 (tableAt (Ideal.fptosi 32 (cls y))) := by
  unfold refWeight refIdx tableAt
  rfl

theorem tableAt_zero : tableAt (BitVec.ofInt 32 0) = 0x3F800000#32 := by decide
theorem tableAt_one : tableAt (BitVec.ofInt 32 1) = 0x40800000#32 := by decide
theorem tableAt_two : tableAt (BitVec.ofInt 32 2) = 0x40400000#32 := by decide
theorem tableAt_three : tableAt (BitVec.ofInt 32 3) = 0x40000000#32 := by decide

/-! ## The compare-and-select at a real class -/

/-- Below one half the compare-and-select takes its first value. -/
theorem select_olt_half_of_lt (r : ℝ) (h : r < 1 / 2) (a b : EReal) :
    Scalar.select (Ideal.cmp .olt (r : EReal) (Ideal.ofBits .f32 0x3F000000#32)) a b = a := by
  rw [ofBits_f32_half]
  show Scalar.select (BitVec.ofBool (decide ((r : EReal) < ((1 / 2 : ℝ) : EReal)))) a b = a
  rw [decide_eq_true (EReal.coe_lt_coe_iff.2 h)]
  exact select_one a b

/-- From one half on it takes its second value. -/
theorem select_olt_half_of_not_lt (r : ℝ) (h : ¬r < 1 / 2) (a b : EReal) :
    Scalar.select (Ideal.cmp .olt (r : EReal) (Ideal.ofBits .f32 0x3F000000#32)) a b = b := by
  rw [ofBits_f32_half]
  show Scalar.select (BitVec.ofBool (decide ((r : EReal) < ((1 / 2 : ℝ) : EReal)))) a b = b
  rw [decide_eq_false (fun h' => h (EReal.coe_lt_coe_iff.1 h'))]
  exact select_zero a b

/-- Five minus a real class. -/
theorem five_sub (r s : ℝ) (h : 5 - r = s) : Ideal.ofBits .f32 0x40A00000#32 - (r : EReal) = ((s : ℝ) : EReal) := by
  rw [ofBits_f32_five, ← EReal.coe_sub, h]

/-! ## The two weights agree on a real target -/

set_option maxHeartbeats 400000 in
theorem refWeight_coe (y : ℝ) : refWeight (y : EReal) = kWeight (y : EReal) := by
  obtain ⟨c, h0, h3, hc⟩ := cls_coe y
  rw [refWeight_eq_tableAt]
  unfold kWeight
  rw [hc, fptosi_int c h0 h3]
  interval_cases c
  · rw [tableAt_zero, select_olt_half_of_lt _ (by norm_num)]
  · rw [tableAt_one, select_olt_half_of_not_lt _ (by norm_num), five_sub _ 4 (by norm_num), ofBits_f32_four]
  · rw [tableAt_two, select_olt_half_of_not_lt _ (by norm_num), five_sub _ 3 (by norm_num), ofBits_f32_three]
  · rw [tableAt_three, select_olt_half_of_not_lt _ (by norm_num), five_sub _ 2 (by norm_num), ofBits_f32_two]

end Cert.ReferenceIdeal.RefRead

end
-- ==== Proof.RefRead.lean ====
/-
  The reference's three results as Spec's functions of the four argument arrays.

  The break loss and the regression loss are read in their own modules; the total is one times the
  first plus one times the second, read at the one index of the shape with no axes.
-/
import proofs.«127027_j80341658239297_2_alg».proof.Proof.RefReadBreak
import proofs.«127027_j80341658239297_2_alg».proof.Proof.RefReadReg
import proofs.«127027_j80341658239297_2_alg».proof.Proof.RefReadWeightCoe

noncomputable section

namespace Cert.ReferenceIdeal.RefRead

open Cert.ReferenceIdeal Cert.ReferenceIdeal.Facts₀ Idealize.ShloMosaic Cert.Loss

variable [Cert.ReferenceIdeal.Facts]

set_option maxHeartbeats 400000 in
/-- The total loss is one times the break loss plus one times the regression loss. -/
theorem tTotal_eq (A0 A1 A2 A3 : FVec Ideal S2048x16384 .f32) :
    RefTerm.tTotal A0 A1 A2 A3 = fun _ => rTotal (fun i => refWeight (A3 i)) A0 A1 A2 A3 := by
  funext j
  have h : RefTerm.tTotal A0 A1 A2 A3 j
      = Ideal.ofBits .f32 0x3F800000#32 * RefTerm.tBreak A0 A2 j
        + Ideal.ofBits .f32 0x3F800000#32 * RefTerm.tReg A1 A3 j := rfl
  rw [h, tBreak_eq, tReg_eq]
  rfl

end Cert.ReferenceIdeal.RefRead

end
-- ==== Proof.RealValued.lean ====
/-
  Which of the losses' intermediate values are real numbers, and that the kernel's and the
  reference's element functions agree.

  On real arguments every operation of the two element functions stays real: sums, differences,
  products, negations, maxima and minima of reals are real; a logarithm of a real is a real or
  -infinity, and its maximum with -100 is real; a quotient by a nonzero literal is a product; a
  rounding of a real is an integer; a power with real base and exponent is real; a selection is one
  of its two branches.  So every term of the two means is a real number, which is what lets the
  sums be rearranged and the replication factor 1024 be divided out.

  The cross-entropy terms agree everywhere (`0 - x = -x`).  The regression terms agree once the
  absolute error is real: dividing by 1/2 is multiplying by 2, and the square of the clipped
  ratio is its power with exponent 2.
-/
import proofs.«127027_j80341658239297_2_alg».proof.Proof.Spec

noncomputable section

namespace Cert.Loss

open Idealize.ShloMosaic

/-! ## The literals -/

theorem lit_zero : Ideal.ofBits .f32 0x00000000#32 = ((0 : ℝ) : EReal) := by
  rw [Ideal.ofBits_zero_f32]; rfl
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_three : Ideal.ofBits .f32 0x40400000#32 = ((3 : ℝ) : EReal) := by
  simp [Ideal.ofBits, Ideal.ieee, -EReal.coe_mul]; norm_num
theorem lit_five : Ideal.ofBits .f32 0x40A00000#32 = ((5 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_quarter : Ideal.ofBits .f32 0x3E800000#32 = ((1 / 4 : ℝ) : EReal) := by
  simp [Ideal.ofBits, Ideal.ieee, -EReal.coe_mul]; norm_num
theorem lit_m100 : Ideal.ofBits .f32 0xC2C80000#32 = ((-100 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_n : Ideal.ofBits .f32 0x4C000000#32 = ((33554432 : ℝ) : EReal) := by
  simp [Ideal.ofBits, Ideal.ieee, -EReal.coe_mul]; norm_num

/-! ## Real-valued extended reals -/

/-- An extended real that is a real number. -/
def IsR (x : EReal) : Prop := ∃ r : ℝ, x = (r : EReal)

namespace IsR

theorem coe (r : ℝ) : IsR (r : EReal) := ⟨r, rfl⟩

variable {x y : EReal}

theorem add (hx : IsR x) (hy : IsR y) : IsR (x + y) := by
  obtain ⟨a, rfl⟩ := hx; obtain ⟨b, rfl⟩ := hy; exact ⟨a + b, (EReal.coe_add a b).symm⟩
theorem sub (hx : IsR x) (hy : IsR y) : IsR (x - y) := by
  obtain ⟨a, rfl⟩ := hx; obtain ⟨b, rfl⟩ := hy; exact ⟨a - b, (EReal.coe_sub a b).symm⟩
theorem mul (hx : IsR x) (hy : IsR y) : IsR (x * y) := by
  obtain ⟨a, rfl⟩ := hx; obtain ⟨b, rfl⟩ := hy; exact ⟨a * b, (EReal.coe_mul a b).symm⟩
theorem neg (hx : IsR x) : IsR (-x) := by
  obtain ⟨a, rfl⟩ := hx; exact ⟨-a, (EReal.coe_neg a).symm⟩
theorem max (hx : IsR x) (hy : IsR y) : IsR (max x y) := by
  obtain ⟨a, rfl⟩ := hx; obtain ⟨b, rfl⟩ := hy
  exact ⟨Max.max a b, (EReal.coe_strictMono.monotone.map_max).symm⟩
theorem min (hx : IsR x) (hy : IsR y) : IsR (min x y) := by
  obtain ⟨a, rfl⟩ := hx; obtain ⟨b, rfl⟩ := hy
  exact ⟨Min.min a b, (EReal.coe_strictMono.monotone.map_min).symm⟩

theorem select (c : BitVec 1) (hx : IsR x) (hy : IsR y) : IsR (Scalar.select c x y) := by
  unfold Scalar.select; split
  · exact hx
  · exact hy

/-- A logarithm of a real is a real or -infinity; capped below by a real it is real. -/
theorem max_log (hx : IsR x) (hy : IsR y) : IsR (Max.max (Ideal.log x) y) := by
  obtain ⟨a, rfl⟩ := hx
  rw [Ideal.log_coe]; split
  · rw [max_eq_right bot_le]; exact hy
  · exact (coe _).max hy

theorem max_log1p (hx : IsR x) (hy : IsR y) : IsR (Max.max (Ideal.log1p x) y) := by
  unfold Ideal.log1p
  exact max_log (add ⟨1, EReal.coe_one.symm⟩ hx) hy

/-- A quotient by a nonzero real is the product with its reciprocal. -/
theorem div_coe (hx : IsR x) {c : ℝ} (hc : c ≠ 0) : IsR (Ideal.div x (c : EReal)) := by
  rw [Ideal.div_coe hc]; exact hx.mul (coe _)

theorem pow_coe (hx : IsR x) (c : ℝ) : IsR (Ideal.pow x (c : EReal)) := by
  obtain ⟨a, rfl⟩ := hx; rw [Ideal.pow_coe_coe]; exact coe _

theorem liftRound (f : ℝ → ℤ) (hx : IsR x) : IsR (Ideal.liftRound f x) := by
  obtain ⟨a, rfl⟩ := hx; rw [Ideal.liftRound_coe]; exact coe _

end IsR

/-! ## The element functions on real arguments -/

theorem isR_absErr {yp yt : EReal} (hp : IsR yp) (ht : IsR yt) : IsR (absErr yp yt) :=
  (hp.sub ht).max (hp.sub ht).neg

theorem isR_cls {y : EReal} (hy : IsR y) : IsR (cls y) := by
  unfold cls; rw [lit_three, lit_zero]
  exact (IsR.coe _).min ((IsR.coe _).max (hy.liftRound _))

theorem isR_kWeight {y : EReal} (hy : IsR y) : IsR (kWeight y) := by
  unfold kWeight; rw [lit_one, lit_five]
  exact IsR.select _ (IsR.coe _) ((IsR.coe _).sub (isR_cls hy))

/-- Clipping to [0, 1] keeps a real real. -/
theorem isR_clip01 {x : EReal} (hx : IsR x) :
    IsR (min (Ideal.ofBits .f32 0x3F800000#32) (max (Ideal.ofBits .f32 0x00000000#32) x)) := by
  rw [lit_one, lit_zero]; exact (IsR.coe _).min ((IsR.coe _).max hx)

theorem isR_rBce {p t : EReal} (hp : IsR p) (ht : IsR t) : IsR (rBce p t) := by
  unfold rBce
  have hbp := isR_clip01 hp
  have hbt := isR_clip01 ht
  have h100 : IsR (Ideal.ofBits .f32 0xC2C80000#32) := by rw [lit_m100]; exact IsR.coe _
  have h1 : IsR (Ideal.ofBits .f32 0x3F800000#32) := by rw [lit_one]; exact IsR.coe _
  exact ((hbt.mul (IsR.max_log hbp h100)).add ((h1.sub hbt).mul (IsR.max_log1p hbp.neg h100))).neg

theorem isR_rRegEl {w yp yt : EReal} (hw : IsR w) (hp : IsR yp) (ht : IsR yt) : IsR (rRegEl w yp yt) := by
  unfold rRegEl
  have hd := isR_absErr hp ht
  have hq : IsR (Ideal.ofBits .f32 0x3E800000#32) := by rw [lit_quarter]; exact IsR.coe _
  have hh : IsR (Ideal.ofBits .f32 0x3F000000#32) := by rw [lit_half]; exact IsR.coe _
  have hdiv : ∀ {x : EReal}, IsR x → IsR (Ideal.div x (Ideal.ofBits .f32 0x3F000000#32)) := fun hx => by
    rw [lit_half]; exact hx.div_coe (by norm_num)
  have hpow : IsR (Ideal.pow (min (Ideal.ofBits .f32 0x3F800000#32) (max (Ideal.ofBits .f32 0x00000000#32)
      (Ideal.div (absErr yp yt) (Ideal.ofBits .f32 0x3F000000#32)))) (Ideal.ofBits .f32 0x40000000#32)) := by
    rw [lit_two]; exact (isR_clip01 (hdiv hd)).pow_coe _
  exact ((hq.mul hpow).mul (IsR.select _ (hdiv ((hh.mul hd).mul hd)) (hd.sub hq))).mul hw

/-! ## The two programs' element functions agree -/

/-- The cross-entropy terms agree on all extended reals: subtracting from zero is negating. -/
theorem kBce_eq_rBce (p t : EReal) : kBce p t = rBce p t := by
  simp only [kBce, rBce, Ideal.ofBits_zero_f32, zero_sub]

/-- Dividing by one half is multiplying by two. -/
theorem div_half (x : EReal) :
    Ideal.div x (Ideal.ofBits .f32 0x3F000000#32) = x * Ideal.ofBits .f32 0x40000000#32 := by
  rw [lit_half, lit_two, Ideal.div_coe (by norm_num : (1 / 2 : ℝ) ≠ 0)]
  norm_num

/-- A real's power with exponent two is its square. -/
theorem pow_two_of_isR {c : EReal} (hc : IsR c) : Ideal.pow c (Ideal.ofBits .f32 0x40000000#32) = c * c := by
  obtain ⟨r, rfl⟩ := hc
  rw [lit_two, Ideal.pow_coe_coe, ← EReal.coe_mul]
  refine congrArg _ ?_
  show r ^ (2 : ℝ) = r * r
  rw [Real.rpow_two, sq]

/-- The regression terms agree where the absolute error is real, the reference's weight being the kernel's. -/
theorem kRegEl_eq_rRegEl {yp yt : EReal} (hd : IsR (absErr yp yt)) : kRegEl yp yt = rRegEl (kWeight yt) yp yt := by
  unfold kRegEl rRegEl
  rw [div_half, div_half, pow_two_of_isR (isR_clip01 (hd.mul (by rw [lit_two]; exact IsR.coe _)))]

end Cert.Loss

end
-- ==== Proof.Sums.lean ====
/-
  The kernel's tiled, replicated sum against the plain sum over all entries.

  The 2048 x 16384 index set splits into 8 x 8 tiles of 256 x 2048: row `x` is `256 bi + a`, column
  `y` is `2048 bj + b`, each in exactly one way.  So summing over tiles and then inside each tile is
  summing over all entries, in any commutative monoid — no finiteness is needed to rearrange a sum
  of extended reals, whose addition is commutative and associative.

  Each of the 64 x 128 output cells holds the total of its row of tiles; rows `8 bi … 8 bi + 7` and
  all 128 columns belong to row-of-tiles `bi`, 1024 cells each.  So the output array's total is 1024
  times the total over all entries.  Dividing 1024 out again needs the total to be a real number:
  then `(0 + 1024 t) / 1024 / n = (0 + t) / n` in the reals.
-/
import proofs.«127027_j80341658239297_2_alg».proof.Proof.RealValued

noncomputable section

namespace Cert.Loss

open Idealize.ShloMosaic Idealize.ShloMosaic.ValueIdx

/-- A sum over `m * n` indices, as a double sum over quotient and remainder: index `s + n q`. -/
theorem sum_fin_mul {M : Type*} [AddCommMonoid M] (m n : ℕ) (g : Fin (m * n) → M) :
    ∑ r : Fin (m * n), g r = ∑ q : Fin m, ∑ s : Fin n, g (finProdFinEquiv (q, s)) := by
  rw [← Fintype.sum_prod_type' (fun q s => g (finProdFinEquiv (q, s)))]
  exact (Equiv.sum_comp finProdFinEquiv g).symm

/-- Every output cell holds a quantity of its row of tiles: the array's total counts each row of tiles 1024 times. -/
theorem sum_outBlk {M : Type*} [AddCommMonoid M] (F : Fin 8 → M) :
    ∑ i : SO.Idx, F (outBlk i) = 1024 • ∑ bi : Fin 8, F bi := by
  rw [sum_idx2]
  have hcol : ∀ r : Fin 64, ∑ l : Fin 128, F (outBlk (ix2 r l)) = 128 • F ⟨r.val / 8, by omega⟩ := fun r => by
    rw [show (fun l : Fin 128 => F (outBlk (ix2 r l))) = fun _ => F ⟨r.val / 8, by omega⟩ from rfl,
      Finset.sum_const, Finset.card_univ, Fintype.card_fin]
  rw [Finset.sum_congr rfl fun r _ => hcol r, Finset.sum_nsmul]
  have hrow : ∑ r : Fin 64, F ⟨r.val / 8, by omega⟩ = 8 • ∑ bi : Fin 8, F bi := by
    refine (sum_fin_mul 8 8 (fun r : Fin (8 * 8) => F ⟨r.val / 8, by omega⟩)).trans ?_
    rw [← Finset.sum_nsmul]
    refine Finset.sum_congr rfl fun q _ => ?_
    have : ∀ s : Fin 8, (F ⟨(finProdFinEquiv (q, s) : Fin (8 * 8)).val / 8, by omega⟩) = F q := fun s => by
      refine congrArg F (Fin.ext ?_)
      show (finProdFinEquiv (q, s) : Fin (8 * 8)).val / 8 = q.val
      rw [finProdFinEquiv_apply_val]
      have := s.isLt
      show (s.val + 8 * q.val) / 8 = q.val
      omega
    rw [Finset.sum_congr rfl fun s _ => this s, Finset.sum_const, Finset.card_univ, Fintype.card_fin]
  rw [hrow, ← mul_nsmul]

/-- Summing tile by tile, then inside each tile, is summing over all entries. -/
theorem sum_tiles {M : Type*} [AddCommMonoid M] (h : SA.Idx → M) :
    ∑ bi : Fin 8, ∑ bj : Fin 8, ∑ a : Fin 256, ∑ b : Fin 2048, h (tileIx bi bj a b) = ∑ j : SA.Idx, h j := by
  rw [sum_idx2]
  refine ((sum_fin_mul 8 256 (fun x : Fin (8 * 256) => ∑ y : Fin 16384, h (ix2 x y))).trans ?_).symm
  refine Finset.sum_congr rfl fun bi _ => ?_
  refine Eq.trans ?_ (Finset.sum_comm (s := Finset.univ) (t := Finset.univ)
    (f := fun (a : Fin 256) (bj : Fin 8) => ∑ b : Fin 2048, h (tileIx bi bj a b)))
  refine Finset.sum_congr rfl fun a _ => ?_
  refine (sum_fin_mul 8 2048 (fun y : Fin (8 * 2048) => h (ix2 (finProdFinEquiv (bi, a) : Fin (8 * 256)) y))).trans ?_
  refine Finset.sum_congr rfl fun bj _ => Finset.sum_congr rfl fun b _ => congrArg h ?_
  have e0 : ((finProdFinEquiv (bi, a) : Fin (8 * 256)) : Fin 2048) = ⟨256 * bi.val + a.val, by omega⟩ :=
    Fin.ext (by rw [finProdFinEquiv_apply_val]; show a.val + 256 * bi.val = 256 * bi.val + a.val; omega)
  have e1 : ((finProdFinEquiv (bj, b) : Fin (8 * 2048)) : Fin 16384) = ⟨2048 * bj.val + b.val, by omega⟩ :=
    Fin.ext (by rw [finProdFinEquiv_apply_val]; show b.val + 2048 * bj.val = 2048 * bj.val + b.val; omega)
  unfold tileIx
  rw [e0, e1]

/-- The output array's total: 1024 times the total of `f` over all entries. -/
theorem sum_kOut (f : EReal → EReal → EReal) (X Y : SA.Idx → EReal) :
    ∑ i : SO.Idx, kOut f X Y i = 1024 • ∑ j : SA.Idx, f (X j) (Y j) := by
  unfold kOut tileSum
  rw [sum_outBlk (fun bi => ∑ bj : Fin 8, ∑ a : Fin 256, ∑ b : Fin 2048, f (X (tileIx bi bj a b)) (Y (tileIx bi bj a b))),
    sum_tiles (fun j => f (X j) (Y j))]

/-- A finite sum of real-valued extended reals is real-valued. -/
theorem IsR.sum {ι : Type*} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A multiple of a real, as a real. -/
theorem nsmul_coe (n : ℕ) (t : ℝ) : n • (t : EReal) = ((n * t : ℝ) : EReal) := by
  induction n with
  | zero => simp
  | succ k ih =>
    rw [succ_nsmul, ih, ← EReal.coe_add]
    refine congrArg _ ?_
    push_cast; ring

/-- With a real total, the kernel's mean of its replicated output is the plain mean. -/
theorem kMean_kOut (f : EReal → EReal → EReal) (X Y : SA.Idx → EReal) (hT : IsR (∑ j : SA.Idx, f (X j) (Y j))) :
    kMean (kOut f X Y) = rMean fun j => f (X j) (Y j) := by
  unfold kMean rMean
  rw [sum_kOut]
  obtain ⟨t, ht⟩ := hT
  rw [ht, nsmul_coe, lit_zero, lit_1024, lit_n]
  simp only [Ideal.div_coe (by norm_num : (1024 : ℝ) ≠ 0), Ideal.div_coe (by norm_num : (33554432 : ℝ) ≠ 0),
    ← EReal.coe_add, ← EReal.coe_mul]
  refine congrArg _ ?_
  push_cast; ring

end Cert.Loss

end
-- ==== Proof.Equal.lean ====
/-
  The kernel's three results equal the reference's, when every entry of the arrays is real.

  The break losses: the two cross-entropy terms are one function, every term is real, so the
  replicated tiled mean is the plain mean.  The regression losses: where the entries are real the
  absolute error is real, so the kernel's term is the reference's term with the kernel's class
  weight; the reference's looked-up weight is assumed to be that weight entry by entry.  The totals
  are the same combination of the two.
-/
import proofs.«127027_j80341658239297_2_alg».proof.Proof.Sums

noncomputable section

namespace Cert.Loss

open Idealize.ShloMosaic

theorem kBreak_eq_rBreak (A0 A2 : SA.Idx → EReal) (h0 : ∀ i, IsR (A0 i)) (h2 : ∀ i, IsR (A2 i)) :
    kBreak A0 A2 = rBreak A0 A2 := by
  unfold kBreak rBreak
  have e : kOut kBce A0 A2 = kOut rBce A0 A2 := by
    unfold kOut tileSum
    simp only [kBce_eq_rBce]
  rw [e]
  exact kMean_kOut rBce A0 A2 (IsR.sum _ _ fun j _ => isR_rBce (h0 j) (h2 j))

theorem kReg_eq_rReg (W A1 A3 : SA.Idx → EReal) (h1 : ∀ i, IsR (A1 i)) (h3 : ∀ i, IsR (A3 i))
    (hW : ∀ i, W i = kWeight (A3 i)) : kReg A1 A3 = rReg W A1 A3 := by
  unfold kReg rReg
  have e : kOut kRegEl A1 A3 = kOut (fun p t => rRegEl (kWeight t) p t) A1 A3 := by
    unfold kOut tileSum
    funext i
    exact Finset.sum_congr rfl fun bj _ => Finset.sum_congr rfl fun a _ => Finset.sum_congr rfl fun b _ =>
      kRegEl_eq_rRegEl (isR_absErr (h1 _) (h3 _))
  rw [e]
  refine (kMean_kOut (fun p t => rRegEl (kWeight t) p t) A1 A3
    (IsR.sum _ _ fun j _ => isR_rRegEl (isR_kWeight (h3 j)) (h1 j) (h3 j))).trans ?_
  refine congrArg rMean (funext fun i => ?_)
  show rRegEl (kWeight (A3 i)) (A1 i) (A3 i) = rRegEl (W i) (A1 i) (A3 i)
  rw [hW i]

theorem kTotal_eq_rTotal (W A0 A1 A2 A3 : SA.Idx → EReal) (h0 : ∀ i, IsR (A0 i)) (h1 : ∀ i, IsR (A1 i))
    (h2 : ∀ i, IsR (A2 i)) (h3 : ∀ i, IsR (A3 i)) (hW : ∀ i, W i = kWeight (A3 i)) :
    kTotal A0 A1 A2 A3 = rTotal W A0 A1 A2 A3 := by
  unfold kTotal rTotal
  rw [kBreak_eq_rBreak A0 A2 h0 h2, kReg_eq_rReg W A1 A3 h1 h3 hW]

end Cert.Loss

end
-- ==== Proof.Finite.lean ====
/-
  From the precondition to "every entry of every argument array is a real number".

  The precondition says, of each of the four arrays, that every entry's absolute value is below
  +infinity, and conjoins the four verdicts.  An extended real whose absolute value — the larger of
  itself and its negation — is below +infinity is neither infinity, so it is a real number.
-/
import proofs.«127027_j80341658239297_2_alg».proof.Proof.RealValued
import proofs.«127027_j80341658239297_2_alg».proof.Proof.Gen.Pre_finite_inputs
import Idealize.ShloMosaic.Lib.ReduceAll
import Idealize.ShloMosaic.Lib.Affine
import Idealize.ShloMosaic.Lib.ValueIdx

noncomputable section

namespace Cert.Loss

open Idealize.ShloMosaic

/-- The pattern with all exponent bits set and no fraction bit is +infinity. -/
theorem lit_inf : Ideal.ofBits .f32 0x7F800000#32 = ⊤ := by
  simp [Ideal.ofBits, Ideal.ieee]

/-- An extended real whose absolute value compares below +infinity is a real number. -/
theorem isR_of_abs_lt_inf (x : EReal)
    (h : Ideal.cmp .olt (max x (-x)) (Ideal.ofBits .f32 0x7F800000#32) = 1#1) : IsR x := by
  rw [lit_inf] at h
  induction x using EReal.rec with
  | bot => exact absurd h (by simp [Ideal.cmp])
  | coe r => exact ⟨r, rfl⟩
  | top => exact absurd h (by simp [Ideal.cmp])

instance : Subsingleton Cert.Pre_finite_inputs.S_.Idx := ⟨fun _ _ => funext fun d => d.elim0⟩

/-- Under the precondition all four argument arrays hold real numbers only. -/
theorem real_of_pre (A0 A1 A2 A3 : FVec Ideal Cert.Pre_finite_inputs.S2048x16384 .f32)
    (h : Cert.Pre_finite_inputs.fn (F := Ideal) A0 A1 A2 A3 = fun _ => 1#1) :
    (∀ i, IsR (A0 i)) ∧ (∀ i, IsR (A1 i)) ∧ (∀ i, IsR (A2 i)) ∧ (∀ i, IsR (A3 i)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => isR_of_abs_lt_inf (A0 i) (Host.reduce_andi_all _ _ _ _ _ h0' i),
    fun i => isR_of_abs_lt_inf (A1 i) (Host.reduce_andi_all _ _ _ _ _ h1 i),
    fun i => isR_of_abs_lt_inf (A2 i) (Host.reduce_andi_all _ _ _ _ _ h2 i),
    fun i => isR_of_abs_lt_inf (A3 i) (Host.reduce_andi_all _ _ _ _ _ h3 i)⟩

end Cert.Loss

end
-- ==== Proof.lean ====
/- The proof of `Cert.Claim`: a tiled Pallas kernel computing two mean losses and their sum, against its jnp reference, over the extended reals.

   Both programs take four 2048 x 16384 arrays (break predictions and targets, regression predictions and
   targets) and return three scalars: the total, the break loss — a binary cross entropy with both logarithms
   clamped below at -100 — and the regression loss — a focal smooth-L1 term weighted by the class of the
   rounded target —, each a mean over all 2^25 entries.

   The kernel walks the arrays in 8 x 8 tiles of 256 x 2048, adds each tile's total to every cell of an
   8 x 128 accumulator, writes the accumulator out after a row of tiles as one block of a 64 x 128 array, and
   the host sums that array and divides by 1024 and by 2^25.  The reference sums all entries and divides by
   2^25; it looks the class weight up in a four-entry table where the kernel compares and subtracts, squares
   by a power where the kernel multiplies, and divides by 1/2 where the kernel multiplies by 2.

   The frames of the two kernel programs are the generated ones; the reference's is its run with the results
   dropped.  The idealization rewrote nothing.  For the value claim: the kernel's results are read off the
   generated frame run and the host tail (Proof/KernelValue.lean over Proof/KernelPayload.lean), the reference's
   off its run (Proof/RefRun.lean) and its terms read index by index (Proof/RefRead.lean), both as the functions
   of Proof/Spec.lean; under the precondition every entry is real (Proof/Finite.lean), so every term of both
   means is real (Proof/RealValued.lean), the tiled and replicated sum is 1024 times the plain one
   (Proof/Sums.lean), and the three results agree (Proof/Equal.lean). -/
import proofs.«127027_j80341658239297_2_alg».proof.Defs
import proofs.«127027_j80341658239297_2_alg».proof.Proof.Gen.Kernel
import proofs.«127027_j80341658239297_2_alg».proof.Proof.Gen.Kernel.Frame
import proofs.«127027_j80341658239297_2_alg».proof.Proof.Gen.KernelIdeal
import proofs.«127027_j80341658239297_2_alg».proof.Proof.Gen.KernelIdeal.Frame
import proofs.«127027_j80341658239297_2_alg».proof.Proof.Gen.ReferenceIdeal
import proofs.«127027_j80341658239297_2_alg».proof.Proof.Gen.Pre_finite_inputs
import proofs.«127027_j80341658239297_2_alg».proof.Proof.KernelValue
import proofs.«127027_j80341658239297_2_alg».proof.Proof.RefRun
import proofs.«127027_j80341658239297_2_alg».proof.Proof.RefRead
import proofs.«127027_j80341658239297_2_alg».proof.Proof.Equal
import proofs.«127027_j80341658239297_2_alg».proof.Proof.Finite
import Idealize.ShloMosaic.Adequacy
import Idealize.ShloMosaic.Init

noncomputable section

namespace Cert.Proof

open Idealize.ShloMosaic Idealize.SL.Sem Cert.Loss

theorem frame_k : Cert.frame_Kernel := fun m ρ _ => Cert.Kernel.Gen.frame m ρ

theorem frame_ki : Cert.frame_KernelIdeal := fun m ρ _ => Cert.KernelIdeal.Gen.frame m ρ

/-- The reference runs and keeps its arguments: its run, with the three results dropped. -/
theorem frame_ri : Cert.frame_ReferenceIdeal := fun m ρ _ =>
  (θ_run (Cert.ReferenceIdeal.defs (F := Ideal)) _ _).mono (fun _ h c => (h c).2.2.2)
    (Cert.ReferenceIdeal.RefRun.run m ρ)

/-- The idealization rewrote no operation. -/
theorem preserves : Cert.preserves_Kernel_KernelIdeal := trivial

/-- From memories agreeing on the four arrays, all of whose entries are real, the kernel's run ends at the
    kernel's three functions of them and the reference's at the reference's, which are equal. -/
theorem algebraic : Cert.algebraic_KernelIdeal_ReferenceIdeal := by
  intro m ρ m' ρ' hpre hagree
  refine ⟨_, _, _, Cert.KernelIdeal.KValue.run m ρ, ?_⟩
  refine (θ_run (Cert.ReferenceIdeal.defs (F := Ideal)) _ _).mono (fun r h c => ?_)
    (Cert.ReferenceIdeal.RefRun.run m' ρ')
  obtain ⟨a0, a1, a2, a3⟩ := hagree c
  obtain ⟨h54, h16, h51, k0, k1, k2, k3⟩ := h c
  obtain ⟨r0, r1, r2, r3⟩ := real_of_pre _ _ _ _ (hpre c)
  have hW : ∀ i, Cert.ReferenceIdeal.RefRead.refWeight
        (m ((c.tc : Thread Cert.KernelIdeal.nD Cert.KernelIdeal.τ).loc Cert.KernelIdeal.main_arg3) i)
      = kWeight (m ((c.tc : Thread Cert.KernelIdeal.nD Cert.KernelIdeal.τ).loc Cert.KernelIdeal.main_arg3) i) := fun i => by
    obtain ⟨y, hy⟩ := r3 i
    rw [hy]; exact Cert.ReferenceIdeal.RefRead.refWeight_coe y
  refine ⟨?_, ?_, ?_, k0, k1, k2, k3⟩
  · rw [h54, Cert.ReferenceIdeal.RefRead.tTotal_eq, a0, a1, a2, a3]
    exact funext fun _ => (kTotal_eq_rTotal _ _ _ _ _ r0 r1 r2 r3 hW).symm
  · rw [h16, Cert.ReferenceIdeal.RefRead.tBreak_eq, a0, a2]
    exact funext fun _ => (kBreak_eq_rBreak _ _ r0 r2).symm
  · rw [h51, Cert.ReferenceIdeal.RefRead.tReg_eq, a1, a3]
    exact funext fun _ => (kReg_eq_rReg _ _ _ r1 r3 hW).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
